-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S_ : Shape := ⟨0, ![]⟩

class Facts : Prop where
  bcast_S_S256x64x2 : S_.BroadcastsInDim S256x64x2 (![] : Fin 0 → Fin S256x64x2.rank)
  reducesTo_S256x64x2_S_d0_1_2 : S256x64x2.ReducesTo [0, 1, 2] S_
  h_S_ : 0 < S_.numel
  bcast_S_S64x2x256x512 : S_.BroadcastsInDim S64x2x256x512 (![] : Fin 0 → Fin S64x2x256x512.rank)
  reducesTo_S64x2x256x512_S_d0_1_2_3 : S64x2x256x512.ReducesTo [0, 1, 2, 3] S_
  bcast_S_S2048x2 : S_.BroadcastsInDim S2048x2 (![] : Fin 0 → Fin S2048x2.rank)
  reducesTo_S2048x2_S_d0_1 : S2048x2.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x512 .f32) (main_arg8 : FVec F S2048x512 .f32) (main_arg9 : FVec F S2048 .f32) (main_arg10 : FVec F S2048 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S256x64x2 .f32) (main_arg1 : FVec F S64x2x256x512 .f32) (main_arg2 : FVec F S64x2x256x512 .f32) (main_arg3 : FVec F S2048x2 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) : IVec S_ 1 :=
  let main_v0 : FVec F S256x64x2 .f32 := Host.absf main_arg0
  let main_cst : FVec F S_ .f32 := constant S_ .f32 0x7F800000#32
  let main_v1 : FVec F S256x64x2 .f32 := broadcastInDim S256x64x2 ![] bcast_S_S256x64x2 main_cst
  let main_v2 : IVec S256x64x2 1 := cmpf .olt main_v0 main_v1
  let main_c : IVec S_ 1 := constantI S_ 1 1#1
  let main_v3 : IVec S_ 1 := (fun x v => Host.reduce IntOp.andi x v reducesTo_S256x64x2_S_d0_1_2 h_S_) main_v2 main_c
  let main_v4 : FVec F S64x2x256x512 .f32 := Host.absf main_arg1
  let main_cst_0 : FVec F S_ .f32 := constant S_ .f32 0x7F800000#32
  let main_v5 : FVec F S64x2x256x512 .f32 := broadcastInDim S64x2x256x512 ![] bcast_S_S64x2x256x512 main_cst_0
  let main_v6 : IVec S64x2x256x512 1 := cmpf .olt main_v4 main_v5
  let main_c_1 : IVec S_ 1 := constantI S_ 1 1#1
  let main_v7 : IVec S_ 1 := (fun x v => Host.reduce IntOp.andi x v reducesTo_S64x2x256x512_S_d0_1_2_3 h_S_) main_v6 main_c_1
  let main_v8 : IVec S_ 1 := andi main_v3 main_v7
  let main_v9 : FVec F S64x2x256x512 .f32 := Host.absf main_arg2
  let main_cst_2 : FVec F S_ .f32 := constant S_ .f32 0x7F800000#32
  let main_v10 : FVec F S64x2x256x512 .f32 := broadcastInDim S64x2x256x512 ![] bcast_S_S64x2x256x512 main_cst_2
  let main_v11 : IVec S64x2x256x512 1 := cmpf .olt main_v9 main_v10
  let main_c_3 : IVec S_ 1 := constantI S_ 1 1#1
  let main_v12 : IVec S_ 1 := (fun x v => Host.reduce IntOp.andi x v reducesTo_S64x2x256x512_S_d0_1_2_3 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_arg4 main_arg5 main_arg6 main_arg7 main_arg8 main_arg9 main_arg10 main_v13 main_v16
-- ==== Kernel.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S64x256x2 : Shape := ⟨3, ![64, 256, 2]⟩
abbrev S2x2048 : Shape := ⟨2, ![2, 2048]⟩
abbrev S512x2048 : Shape := ⟨2, ![512, 2048]⟩
abbrev S1x2048 : Shape := ⟨2, ![1, 2048]⟩
abbrev S2x256x2 : Shape := ⟨3, ![2, 256, 2]⟩
abbrev S2x2x256x512 : Shape := ⟨4, ![2, 2, 256, 512]⟩
abbrev S512x2 : Shape := ⟨2, ![512, 2]⟩
abbrev S2x1x256x512 : Shape := ⟨4, ![2, 1, 256, 512]⟩
abbrev S2x256x512 : Shape := ⟨3, ![2, 256, 512]⟩
abbrev S512x512 : Shape := ⟨2, ![512, 512]⟩
abbrev S64x1x256x512 : Shape := ⟨4, ![64, 1, 256, 512]⟩
abbrev S64x256x512 : Shape := ⟨3, ![64, 256, 512]⟩
abbrev S256x64x512 : Shape := ⟨3, ![256, 64, 512]⟩

abbrev nBuf : Space → Nat
  | .hbm => 25
  | .vmem => 18
  | .smem => 0
  | _ => 0

abbrev bufTy : (tb : Table) → Fin (tcTables nBuf tb) → BufTy
  | .hbm, ⟨0, _⟩ => ⟨S256x64x2, .f32⟩
  | .hbm, ⟨1, _⟩ => ⟨S64x2x256x512, .f32⟩
  | .hbm, ⟨2, _⟩ => ⟨S64x2x256x512, .f32⟩
  | .hbm, ⟨3, _⟩ => ⟨S2048x2, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S64x256x2, .f32⟩
  | .hbm, ⟨12, _⟩ => ⟨S2x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S64x2x256x512, .f32⟩
  | .hbm, ⟨21, _⟩ => ⟨S64x2x256x512, .f32⟩
  | .hbm, ⟨22, _⟩ => ⟨S64x1x256x512, .f32⟩
  | .hbm, ⟨23, _⟩ => ⟨S64x256x512, .f32⟩
  | .hbm, ⟨24, _⟩ => ⟨S256x64x512, .f32⟩
  | .local _ .vmem, ⟨0, _⟩ => ⟨S2x256x2, .f32⟩
  | .local _ .vmem, ⟨1, _⟩ => ⟨S2x256x2, .f32⟩
  | .local _ .vmem, ⟨2, _⟩ => ⟨S2x2x256x512, .f32⟩
  | .local _ .vmem, ⟨3, _⟩ => ⟨S2x2x256x512, .f32⟩
  | .local _ .vmem, ⟨4, _⟩ => ⟨S2x2x256x512, .f32⟩
  | .local _ .vmem, ⟨5, _⟩ => ⟨S2x2x256x512, .f32⟩
  | .local _ .vmem, ⟨6, _⟩ => ⟨S2x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S2x2x256x512, .f32⟩
  | .local _ .vmem, ⟨15, _⟩ => ⟨S2x2x256x512, .f32⟩
  | .local _ .vmem, ⟨16, _⟩ => ⟨S2x2x256x512, .f32⟩
  | .local _ .vmem, ⟨17, _⟩ => ⟨S2x2x256x512, .f32⟩
  | _, _ => ⟨S256x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x2x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S256x64x2_S64x256x2_1_0_2 : S256x64x2.Transposes [1, 0, 2] S64x256x2
  transposes_S2048x2_S2x2048_1_0 : S2048x2.Transposes [1, 0] S2x2048
  transposes_S2048x512_S512x2048_1_0 : S2048x512.Transposes [1, 0] S512x2048
  shapeCasts_S2048_S1x2048 : S2048.ShapeCasts S1x2048
  inb_S2x256x2_S2x256x2_0_0_0 : ∀ a, (![0, 0, 0] : Fin 3 → Nat) a + S2x256x2.size a ≤ S2x256x2.size a
  h_S2x256x2 : 0 < S2x256x2.numel
  shapeCasts_S2x256x2_S2x256x2 : S2x256x2.ShapeCasts S2x256x2
  shapeCasts_S2x256x2_S512x2 : S2x256x2.ShapeCasts S512x2
  inb_S2x2x256x512_S2x2x256x512_0_0_0_0 : ∀ a, (![0, 0, 0, 0] : Fin 4 → Nat) a + S2x2x256x512.size a ≤ S2x2x256x512.size a
  h_S2x2x256x512 : 0 < S2x2x256x512.numel
  slices_S2x2x256x512_o0_0_0_0_S2x1x256x512 : S2x2x256x512.Slices ![0, 0, 0, 0] S2x1x256x512
  shapeCasts_S2x1x256x512_S2x256x512 : S2x1x256x512.ShapeCasts S2x256x512
  shapeCasts_S2x256x512_S512x512 : S2x256x512.ShapeCasts S512x512
  slices_S2x2x256x512_o0_1_0_0_S2x1x256x512 : S2x2x256x512.Slices ![0, 1, 0, 0] S2x1x256x512
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  shapeCasts_S512x512_S2x256x512 : S512x512.ShapeCasts S2x256x512
  inb_S2x2x256x512_S2x1x256x512_0_0_0_0 : ∀ a, (![0, 0, 0, 0] : Fin 4 → Nat) a + S2x1x256x512.size a ≤ S2x2x256x512.size a
  h_S2x1x256x512 : 0 < S2x1x256x512.numel
  shapeCasts_S2x256x512_S2x1x256x512 : S2x256x512.ShapeCasts S2x1x256x512
  inb_S2x2x256x512_S2x1x256x512_0_1_0_0 : ∀ a, (![0, 1, 0, 0] : Fin 4 → Nat) a + S2x1x256x512.size a ≤ S2x2x256x512.size a
  slices_S64x2x256x512_S64x1x256x512_0_1_0_0 : S64x2x256x512.Slices ![0, 1, 0, 0] S64x1x256x512
  shapeCasts_S64x1x256x512_S64x256x512 : S64x1x256x512.ShapeCasts S64x256x512
  transposes_S64x256x512_S256x64x512_1_0_2 : S64x256x512.Transposes [1, 0, 2] S256x64x512
  dot_S512x2_S2x2048_S512x2048_1_0_0_1_n_n_wf : DotDims.WF S512x2 S2x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2.size a ≤ S64x256x2.size a
  hwx0_0 : ∀ i : grid0.Coords, EltTy.bits .f32 = 32 ∨ (Rect.block (s := S64x256x2) S2x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2x256x512.size a ≤ S64x2x256x512.size a
  hwx0_1 : ∀ i : grid0.Coords, EltTy.bits .f32 = 32 ∨ (Rect.block (s := S64x2x256x512) S2x2x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2x256x512.size a ≤ S64x2x256x512.size a
  hwx0_2 : ∀ i : grid0.Coords, EltTy.bits .f32 = 32 ∨ (Rect.block (s := S64x2x256x512) S2x2x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2048.size a ≤ S2x2048.size a
  hwx0_3 : ∀ i : grid0.Coords, EltTy.bits .f32 = 32 ∨ (Rect.block (s := S2x2048) S2x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .f32 = 32 ∨ (Rect.block (s := S512x2048) S512x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S512x2048.size a
  hwx0_8 : ∀ i : grid0.Coords, EltTy.bits .f32 = 32 ∨ (Rect.block (s := S512x2048) S512x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x2x256x512.size a ≤ S64x2x256x512.size a
  hwx0_11 : ∀ i : grid0.Coords, EltTy.bits .f32 = 32 ∨ (Rect.block (s := S64x2x256x512) S2x2x256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x2x256x512.size a ≤ S64x2x256x512.size a
  hwx0_12 : ∀ i : grid0.Coords, EltTy.bits .f32 = 32 ∨ (Rect.block (s := S64x2x256x512) S2x2x256x512.size (cc0_transform_12 i) (hinb0_12 i)).WholeWords (EltTy.packing .f32)

variable [Facts₀]

def dot_S512x2_S2x2048_S512x2048_1_0_0_1_n_n : DotDims S512x2 S2x2048 S512x2048 where
  lhsContracting := [1]
  rhsContracting := [0]
  lhsNonContracting := [0]
  rhsNonContracting := [1]
  lhsBatch := []
  rhsBatch := []
  wf := dot_S512x2_S2x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S2x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S2x2x256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S2x2x256x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S64x256x2 : Shape := ⟨3, ![64, 256, 2]⟩
abbrev S16384x2 : Shape := ⟨2, ![16384, 2]⟩
abbrev S2x64x256x512 : Shape := ⟨4, ![2, 64, 256, 512]⟩
abbrev S2x16384x512 : Shape := ⟨3, ![2, 16384, 512]⟩
abbrev S2x2048 : Shape := ⟨2, ![2, 2048]⟩
abbrev S16384x2048 : Shape := ⟨2, ![16384, 2048]⟩
abbrev S1x2048 : Shape := ⟨2, ![1, 2048]⟩
abbrev S1x16384x512 : Shape := ⟨3, ![1, 16384, 512]⟩
abbrev S16384x512 : Shape := ⟨2, ![16384, 512]⟩
abbrev S512x2048 : Shape := ⟨2, ![512, 2048]⟩
abbrev S_ : Shape := ⟨0, ![]⟩
abbrev S64x256x512 : Shape := ⟨3, ![64, 256, 512]⟩
abbrev S256x64x512 : Shape := ⟨3, ![256, 64, 512]⟩

abbrev nBuf : Space → Nat
  | .hbm => 127
  | .vmem => 0
  | .smem => 0
  | _ => 0

abbrev bufTy : (tb : Table) → Fin (tcTables nBuf tb) → BufTy
  | .hbm, ⟨0, _⟩ => ⟨S256x64x2, .f32⟩
  | .hbm, ⟨1, _⟩ => ⟨S64x2x256x512, .f32⟩
  | .hbm, ⟨2, _⟩ => ⟨S64x2x256x512, .f32⟩
  | .hbm, ⟨3, _⟩ => ⟨S2048x2, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S64x256x2, .f32⟩
  | .hbm, ⟨12, _⟩ => ⟨S16384x2, .f32⟩
  | .hbm, ⟨13, _⟩ => ⟨S2x64x256x512, .f32⟩
  | .hbm, ⟨14, _⟩ => ⟨S2x16384x512, .f32⟩
  | .hbm, ⟨15, _⟩ => ⟨S2x64x256x512, .f32⟩
  | .hbm, ⟨16, _⟩ => ⟨S2x16384x512, .f32⟩
  | .hbm, ⟨17, _⟩ => ⟨S2x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x16384x512, .f32⟩
  | .hbm, ⟨23, _⟩ => ⟨S16384x512, .f32⟩
  | .hbm, ⟨24, _⟩ => ⟨S512x2048, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S1x16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S512x2048, .f32⟩
  | .hbm, ⟨67, _⟩ => ⟨S16384x2048, .f32⟩
  | .hbm, ⟨68, _⟩ => ⟨S1x2048, .f32⟩
  | .hbm, ⟨69, _⟩ => ⟨S16384x2048, .f32⟩
  | .hbm, ⟨70, _⟩ => ⟨S16384x2048, .f32⟩
  | .hbm, ⟨71, _⟩ => ⟨S1x16384x512, .f32⟩
  | .hbm, ⟨72, _⟩ => ⟨S16384x512, .f32⟩
  | .hbm, ⟨73, _⟩ => ⟨S512x2048, .f32⟩
  | .hbm, ⟨74, _⟩ => ⟨S16384x2048, .f32⟩
  | .hbm, ⟨75, _⟩ => ⟨S16384x2048, .f32⟩
  | .hbm, ⟨76, _⟩ => ⟨S1x2048, .f32⟩
  | .hbm, ⟨77, _⟩ => ⟨S16384x2048, .f32⟩
  | .hbm, ⟨78, _⟩ => ⟨S16384x2048, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S_, .f32⟩
  | .hbm, ⟨86, _⟩ => ⟨S16384x512, .f32⟩
  | .hbm, ⟨87, _⟩ => ⟨S16384x512, .f32⟩
  | .hbm, ⟨88, _⟩ => ⟨S_, .f32⟩
  | .hbm, ⟨89, _⟩ => ⟨S16384x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S_, .f32⟩
  | .hbm, ⟨94, _⟩ => ⟨S16384x512, .f32⟩
  | .hbm, ⟨95, _⟩ => ⟨S16384x512, .f32⟩
  | .hbm, ⟨96, _⟩ => ⟨S_, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S_, .f32⟩
  | .hbm, ⟨102, _⟩ => ⟨S16384x512, .f32⟩
  | .hbm, ⟨103, _⟩ => ⟨S16384x512, .f32⟩
  | .hbm, ⟨104, _⟩ => ⟨S_, .f32⟩
  | .hbm, ⟨105, _⟩ => ⟨S16384x512, .f32⟩
  | .hbm, ⟨106, _⟩ => ⟨S16384x512, .f32⟩
  | .hbm, ⟨107, _⟩ => ⟨S16384x512, .f32⟩
  | .hbm, ⟨108, _⟩ => ⟨S1x16384x512, .f32⟩
  | .hbm, ⟨109, _⟩ => ⟨S16384x512, .f32⟩
  | .hbm, ⟨110, _⟩ => ⟨S16384x512, .f32⟩
  | .hbm, ⟨111, _⟩ => ⟨S16384x512, .f32⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S64x256x512, .f32⟩
  | .hbm, ⟨116, _⟩ => ⟨S256x64x512, .f32⟩
  | .hbm, ⟨117, _⟩ => ⟨S1x16384x512, .f32⟩
  | .hbm, ⟨118, _⟩ => ⟨S1x16384x512, .f32⟩
  | .hbm, ⟨119, _⟩ => ⟨S2x16384x512, .f32⟩
  | .hbm, ⟨120, _⟩ => ⟨S2x64x256x512, .f32⟩
  | .hbm, ⟨121, _⟩ => ⟨S64x2x256x512, .f32⟩
  | .hbm, ⟨122, _⟩ => ⟨S1x16384x512, .f32⟩
  | .hbm, ⟨123, _⟩ => ⟨S1x16384x512, .f32⟩
  | .hbm, ⟨124, _⟩ => ⟨S2x16384x512, .f32⟩
  | .hbm, ⟨125, _⟩ => ⟨S2x64x256x512, .f32⟩
  | .hbm, ⟨126, _⟩ => ⟨S64x2x256x512, .f32⟩
  | _, _ => ⟨S256x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_5 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]

class Facts₀ : Prop where
  transposes_S256x64x2_S64x256x2_1_0_2 : S256x64x2.Transposes [1, 0, 2] S64x256x2
  shapeCasts_S64x256x2_S16384x2 : S64x256x2.ShapeCasts S16384x2
  transposes_S64x2x256x512_S2x64x256x512_1_0_2_3 : S64x2x256x512.Transposes [1, 0, 2, 3] S2x64x256x512
  shapeCasts_S2x64x256x512_S2x16384x512 : S2x64x256x512.ShapeCasts S2x16384x512
  transposes_S2048x2_S2x2048_1_0 : S2048x2.Transposes [1, 0] S2x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S2x16384x512_S1x16384x512_0_0_0 : S2x16384x512.Slices ![0, 0, 0] S1x16384x512
  shapeCasts_S1x16384x512_S16384x512 : S1x16384x512.ShapeCasts S16384x512
  transposes_S2048x512_S512x2048_1_0 : S2048x512.Transposes [1, 0] S512x2048
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S2x16384x512_S1x16384x512_1_0_0 : S2x16384x512.Slices ![1, 0, 0] S1x16384x512
  shapeCasts_S16384x512_S64x256x512 : S16384x512.ShapeCasts S64x256x512
  transposes_S64x256x512_S256x64x512_1_0_2 : S64x256x512.Transposes [1, 0, 2] S256x64x512
  bcast_S16384x512_S1x16384x512_1_2 : S16384x512.BroadcastsInDim S1x16384x512 (![1, 2] : Fin 2 → Fin S1x16384x512.rank)
  concatenates_S1x16384x512_S1x16384x512_S2x16384x512_d0 : Shape.Concatenates [S1x16384x512, S1x16384x512] S2x16384x512 0
  shapeCasts_S2x16384x512_S2x64x256x512 : S2x16384x512.ShapeCasts S2x64x256x512
  transposes_S2x64x256x512_S64x2x256x512_1_0_2_3 : S2x64x256x512.Transposes [1, 0, 2, 3] S64x2x256x512
  dot_S16384x2_S2x2048_S16384x2048_1_0_0_1_n_n_wf : DotDims.WF S16384x2 S2x2048 S16384x2048 [1] [0] [0] [1] [] []
  dot_S16384x512_S512x2048_S16384x2048_1_0_0_1_n_n_wf : DotDims.WF S16384x512 S512x2048 S16384x2048 [1] [0] [0] [1] [] []

variable [Facts₀]

def dot_S16384x2_S2x2048_S16384x2048_1_0_0_1_n_n : DotDims S16384x2 S2x2048 S16384x2048 where
  lhsContracting := [1]
  rhsContracting := [0]
  lhsNonContracting := [0]
  rhsNonContracting := [1]
  lhsBatch := []
  rhsBatch := []
  wf := dot_S16384x2_S2x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LstmCell.lean ====
/-
  One row of a two-layer, single-step LSTM cell over the extended reals.

  A row is one (pedestrian, batch element) pair: an input vector of 2 numbers and, per layer, a hidden and a cell
  state of 512 numbers. Each layer forms 2048 gate pre-activations
      pre n = (sum over k of x k * wi n k) + (sum over k of h k * wh n k) + bi n + bh n,
  read in four groups of 512 (input, forget, candidate, output gate: columns j, 512 + j, 1024 + j, 1536 + j), and
      c' j = logistic (pre (512 + j)) * c j + logistic (pre j) * tanh (pre (1024 + j)),
      h' j = logistic (pre (1536 + j)) * tanh (c' j).
  Layer 1 takes layer 0's new hidden state h' as its input vector.

  The only algebra two spellings of this cell can differ by here is the order in which the two biases and the two
  products are added; addition of extended reals is commutative and associative, so no finiteness is needed.
-/
import Idealize.ShloMosaic.PureOps.Ideal

noncomputable section

namespace Cert.Lstm

open Idealize.ShloMosaic

/-- Column `j` of gate group `q` among the 2048 pre-activations. -/
def col (q : Fin 4) (j : Fin 512) : Fin 2048 := ⟨q.val * 512 + j.val, by have := q.isLt; have := j.isLt; omega⟩

@[simp] theorem col_val (q : Fin 4) (j : Fin 512) : (col q j).val = q.val * 512 + j.val := rfl

/-- A gate pre-activation: input product plus recurrent product plus the two biases, added in that order. -/
def preAct {K1 K2 : ℕ} (x : Fin K1 → EReal) (wi : Fin K1 → EReal) (h : Fin K2 → EReal) (wh : Fin K2 → EReal)
    (bi bh : EReal) : EReal :=
  (∑ k, x k * wi k) + (∑ k, h k * wh k) + bi + bh

/-- The same number with the first bias added before the recurrent product. -/
theorem preAct_bias_first {K1 K2 : ℕ} (x : Fin K1 → EReal) (wi : Fin K1 → EReal) (h : Fin K2 → EReal)
    (wh : Fin K2 → EReal) (bi bh : EReal) :
    (∑ k, x k * wi k) + bi + (∑ k, h k * wh k) + bh = preAct x wi h wh bi bh := by
  unfold preAct
  rw [add_right_comm (∑ k, x k * wi k) bi]

/-- The new cell state from the input, forget and candidate pre-activations and the old cell state. -/
def cellC (gi gf gg c : EReal) : EReal := Ideal.logistic gf * c + Ideal.logistic gi * Ideal.tanh gg

/-- The new hidden state from the output pre-activation and the new cell state. -/
def cellH (go c' : EReal) : EReal := Ideal.logistic go * Ideal.tanh c'

theorem cellC_congr {a a' b b' c c' d d' : EReal} (h1 : a = a') (h2 : b = b') (h3 : c = c') (h4 : d = d') :
    cellC a b c d = cellC a' b' c' d' := by rw [h1, h2, h3, h4]

theorem cellH_congr {a a' b b' : EReal} (h1 : a = a') (h2 : b = b') : cellH a b = cellH a' b' := by rw [h1, h2]

/-- The weights of both layers, each matrix as (gate column, input coordinate). -/
structure Weights where
  wi0 : Fin 2048 → Fin 2 → EReal
  wh0 : Fin 2048 → Fin 512 → EReal
  bi0 : Fin 2048 → EReal
  bh0 : Fin 2048 → EReal
  wi1 : Fin 2048 → Fin 512 → EReal
  wh1 : Fin 2048 → Fin 512 → EReal
  bi1 : Fin 2048 → EReal
  bh1 : Fin 2048 → EReal

/-- One row's data: the input vector and, per layer, the old hidden and cell states. -/
structure Row where
  x : Fin 2 → EReal
  h0 : Fin 512 → EReal
  c0 : Fin 512 → EReal
  h1 : Fin 512 → EReal
  c1 : Fin 512 → EReal

variable (W : Weights) (r : Row)

/-- Layer 0's pre-activations. -/
def pre0 (n : Fin 2048) : EReal := preAct r.x (W.wi0 n) r.h0 (W.wh0 n) (W.bi0 n) (W.bh0 n)
/-- Layer 0's new cell state. -/
def newC0 (j : Fin 512) : EReal :=
  cellC (pre0 W r (col 0 j)) (pre0 W r (col 1 j)) (pre0 W r (col 2 j)) (r.c0 j)
/-- Layer 0's new hidden state. -/
def newH0 (j : Fin 512) : EReal := cellH (pre0 W r (col 3 j)) (newC0 W r j)
/-- Layer 1's pre-activations: its input vector is layer 0's new hidden state. -/
def pre1 (n : Fin 2048) : EReal := preAct (newH0 W r) (W.wi1 n) r.h1 (W.wh1 n) (W.bi1 n) (W.bh1 n)
/-- Layer 1's new cell state. -/
def newC1 (j : Fin 512) : EReal :=
  cellC (pre1 W r (col 0 j)) (pre1 W r (col 1 j)) (pre1 W r (col 2 j)) (r.c1 j)
/-- Layer 1's new hidden state. -/
def newH1 (j : Fin 512) : EReal := cellH (pre1 W r (col 3 j)) (newC1 W r j)

end Cert.Lstm

end
-- ==== Proof.TileLayout.lean ====
/-
  The layouts of one tile of the LSTM step, read at explicit coordinates.

  A tile holds 2 pedestrians and 256 batch elements, flattened to 512 rows: row pp * 256 + b is pedestrian pp's batch
  element b. The input block [2, 256, 2] is flattened to [512, 2]; a state block [2, 2, 256, 512] is cut at one layer
  ([2, 1, 256, 512]), the unit axis dropped ([2, 256, 512]) and flattened ([512, 512]); a result [512, 512] is taken
  back the same way to [2, 1, 256, 512]; the 2048 gate columns are read in four slices of 512. Each of these is a
  re-indexing: the element at a flattened position is the element of the operand at the same row-major position,
  shifted by the slice's offset.
-/
import Idealize.ShloMosaic.Lib.Pipeline.Value
import Idealize.ShloMosaic.Lib.ValueIdx
import Idealize.ShloMosaic.Lib.ValueLayout

noncomputable section

namespace Cert.Lstm

open Idealize.ShloMosaic Idealize.ShloMosaic.ValueIdx

variable {α : Type}

/-- Row pp * 256 + b of a tile's 512 rows. -/
def rowIx (pp : Fin 2) (b : Fin 256) : Fin 512 := ⟨pp.val * 256 + b.val, by have := pp.isLt; have := b.isLt; omega⟩

@[simp] theorem rowIx_val (pp : Fin 2) (b : Fin 256) : (rowIx pp b).val = pp.val * 256 + b.val := rfl

/-- Every one of the 512 rows is some (pp, b). -/
theorem exists_rowIx (r : Fin 512) : ∃ (pp : Fin 2) (b : Fin 256), r = rowIx pp b :=
  ⟨⟨r.val / 256, by have := r.isLt; omega⟩, ⟨r.val % 256, by omega⟩, Fin.ext (by show r.val = r.val / 256 * 256 + r.val % 256; omega)⟩

/-- The input block flattened to rows: row (pp, b), coordinate k. -/
theorem flatX_apply (x : (⟨3, ![2, 256, 2]⟩ : Shape).Idx → α)
    (h : (⟨3, ![2, 256, 2]⟩ : Shape).ShapeCasts ⟨2, ![512, 2]⟩) (pp : Fin 2) (b : Fin 256) (k : Fin 2) :
    shapeCast ⟨2, ![512, 2]⟩ x h (ix2 (rowIx pp b) k) = x (ix3 pp b k) := by
  refine shapeCast_apply x h _ _ ?_
  rw [Shape.rowMajor_val_three, Shape.rowMajor_val_two]
  rfl

/-- A state block cut at layer `o`, the unit axis dropped, flattened to rows: row (pp, b), unit k. -/
theorem flatState_apply (x : (⟨4, ![2, 2, 256, 512]⟩ : Shape).Idx → α) (o : ℕ) (l : Fin 2) (hl : l.val = o)
    (hs : (⟨4, ![2, 2, 256, 512]⟩ : Shape).Slices ![0, o, 0, 0] ⟨4, ![2, 1, 256, 512]⟩)
    (h1 : (⟨4, ![2, 1, 256, 512]⟩ : Shape).ShapeCasts ⟨3, ![2, 256, 512]⟩)
    (h2 : (⟨3, ![2, 256, 512]⟩ : Shape).ShapeCasts ⟨2, ![512, 512]⟩) (pp : Fin 2) (b : Fin 256) (k : Fin 512) :
    shapeCast ⟨2, ![512, 512]⟩ (shapeCast ⟨3, ![2, 256, 512]⟩ (extractStridedSlice ⟨4, ![2, 1, 256, 512]⟩ ![0, o, 0, 0] x hs) h1) h2
        (ix2 (rowIx pp b) k) = x (ix4 pp l b k) := by
  refine (shapeCast_apply _ h2 _ (ix3 pp b k) ?_).trans ?_
  · rw [Shape.rowMajor_val_three, Shape.rowMajor_val_two]; rfl
  refine (shapeCast_apply _ h1 _ (ix4 pp (0 : Fin 1) b k) ?_).trans ?_
  · rw [Shape.rowMajor_val_four, Shape.rowMajor_val_three]
    show ((pp.val * 1 + 0) * 256 + b.val) * 512 + k.val = (pp.val * 256 + b.val) * 512 + k.val
    omega
  refine extractStridedSlice_apply _ x hs _ (ix4 pp l b k) fun a => ?_
  match a with
  | ⟨0, _⟩ => show pp.val = 0 + pp.val; omega
  | ⟨1, _⟩ => show l.val = o + 0; omega
  | ⟨2, _⟩ => show b.val = 0 + b.val; omega
  | ⟨3, _⟩ => show k.val = 0 + k.val; omega

/-- A [512, 512] result taken back to [2, 1, 256, 512]: pedestrian pp, batch element b, unit j is row (pp, b). -/
theorem unflat_apply (v : (⟨2, ![512, 512]⟩ : Shape).Idx → α)
    (h1 : (⟨2, ![512, 512]⟩ : Shape).ShapeCasts ⟨3, ![2, 256, 512]⟩)
    (h2 : (⟨3, ![2, 256, 512]⟩ : Shape).ShapeCasts ⟨4, ![2, 1, 256, 512]⟩) (pp : Fin 2) (b : Fin 256) (j : Fin 512) :
    shapeCast ⟨4, ![2, 1, 256, 512]⟩ (shapeCast ⟨3, ![2, 256, 512]⟩ v h1) h2 (ix4 pp (0 : Fin 1) b j) = v (ix2 (rowIx pp b) j) := by
  refine (shapeCast_apply _ h2 _ (ix3 pp b j) ?_).trans ?_
  · rw [Shape.rowMajor_val_three, Shape.rowMajor_val_four]
    show (pp.val * 256 + b.val) * 512 + j.val = ((pp.val * 1 + 0) * 256 + b.val) * 512 + j.val
    omega
  refine shapeCast_apply _ h1 _ (ix2 (rowIx pp b) j) ?_
  rw [Shape.rowMajor_val_two, Shape.rowMajor_val_three]; rfl

/-- The same for a value already shaped [2, 256, 512]. -/
theorem unflat3_apply (v : (⟨3, ![2, 256, 512]⟩ : Shape).Idx → α)
    (h2 : (⟨3, ![2, 256, 512]⟩ : Shape).ShapeCasts ⟨4, ![2, 1, 256, 512]⟩) (pp : Fin 2) (b : Fin 256) (j : Fin 512) :
    shapeCast ⟨4, ![2, 1, 256, 512]⟩ v h2 (ix4 pp (0 : Fin 1) b j) = v (ix3 pp b j) := by
  refine shapeCast_apply _ h2 _ (ix3 pp b j) ?_
  rw [Shape.rowMajor_val_three, Shape.rowMajor_val_four]
  show (pp.val * 256 + b.val) * 512 + j.val = ((pp.val * 1 + 0) * 256 + b.val) * 512 + j.val
  omega

/-- A [512, 512] value shaped [2, 256, 512], read at (pp, b, j). -/
theorem unflat2_apply (v : (⟨2, ![512, 512]⟩ : Shape).Idx → α)
    (h1 : (⟨2, ![512, 512]⟩ : Shape).ShapeCasts ⟨3, ![2, 256, 512]⟩) (pp : Fin 2) (b : Fin 256) (j : Fin 512) :
    shapeCast ⟨3, ![2, 256, 512]⟩ v h1 (ix3 pp b j) = v (ix2 (rowIx pp b) j) := by
  refine shapeCast_apply _ h1 _ (ix2 (rowIx pp b) j) ?_
  rw [Shape.rowMajor_val_two, Shape.rowMajor_val_three]; rfl

/-- A slice of 512 of the 2048 gate columns starting at column `o`. -/
theorem gateCols_apply (v : (⟨2, ![512, 2048]⟩ : Shape).Idx → α) (o : ℕ)
    (hs : (⟨2, ![512, 2048]⟩ : Shape).Slices ![0, o] ⟨2, ![512, 512]⟩) (r : Fin 512) (j : Fin 512) (n : Fin 2048)
    (hn : n.val = o + j.val) :
    extractStridedSlice ⟨2, ![512, 512]⟩ ![0, o] v hs (ix2 r j) = v (ix2 r n) := by
  refine extractStridedSlice_apply _ v hs _ (ix2 r n) fun a => ?_
  match a with
  | ⟨0, _⟩ => show r.val = 0 + r.val; omega
  | ⟨1, _⟩ => exact hn

/-- A bias row [1, 2048] broadcast over the 512 rows. -/
theorem biasRow_apply (x : (⟨2, ![1, 2048]⟩ : Shape).Idx → α) (h0 : (⟨2, ![1, 2048]⟩ : Shape).ShapeCasts ⟨2, ![1, 2048]⟩)
    (hb : (⟨2, ![1, 2048]⟩ : Shape).Broadcasts ⟨2, ![512, 2048]⟩) (r : Fin 512) (n : Fin 2048) :
    broadcastTo ⟨2, ![512, 2048]⟩ (shapeCast ⟨2, ![1, 2048]⟩ x h0) hb (ix2 r n) = x (ix2 (0 : Fin 1) n) := by
  rw [shapeCast_self]
  exact broadcastTo_1b_ab_apply x hb r n

end Cert.Lstm

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.TileCell.lean ====
/-
  The kernel body's arithmetic at one tile, read at a row and a column.

  At a grid point the body sees a block of 2 pedestrians: the input block [2, 256, 2], the two state blocks
  [2, 2, 256, 512], the four weight matrices already transposed ([inputs, 2048]) and the four biases as rows
  [1, 2048]. Flattened to 512 rows, its gate pre-activations are two matrix products into a zero accumulator plus the
  two broadcast bias rows; each product read at (row, column) is the plain sum over the contracted coordinate, and the
  flattening, the layer slices and the column slices are re-indexings. So each value the body stores, read at
  pedestrian pp, batch element b and unit j, is the cell of row (pp, b) under the block's weights.
-/
import proofs.«101591_j15547781612107_2_alg».proof.Proof.LstmCell
import proofs.«101591_j15547781612107_2_alg».proof.Proof.TileLayout
import proofs.«101591_j15547781612107_2_alg».proof.Proof.LibMatmulSum
import proofs.«101591_j15547781612107_2_alg».proof.Proof.Gen.KernelIdeal.Skeleton

noncomputable section

namespace Cert.Lstm

open Idealize.ShloMosaic Idealize.ShloMosaic.ValueIdx Cert.KernelIdeal Cert.KernelIdeal.Gen

/-- The weights as a tile's operand blocks hold them: matrices transposed to [inputs, 2048], biases as one row. -/
def tileWeights (x3 : FVec Ideal S2x2048 .f32) (x4 : FVec Ideal S512x2048 .f32) (x5 x6 : FVec Ideal S1x2048 .f32)
    (x7 x8 : FVec Ideal S512x2048 .f32) (x9 x10 : FVec Ideal S1x2048 .f32) : Weights where
  wi0 n k := x3 (ix2 k n)
  wh0 n k := x4 (ix2 k n)
  bi0 n := x5 (ix2 (0 : Fin 1) n)
  bh0 n := x6 (ix2 (0 : Fin 1) n)
  wi1 n k := x7 (ix2 k n)
  wh1 n k := x8 (ix2 k n)
  bi1 n := x9 (ix2 (0 : Fin 1) n)
  bh1 n := x10 (ix2 (0 : Fin 1) n)

/-- Row (pp, b) of a tile, from its input and state blocks. -/
def tileRow (x0 : FVec Ideal S2x256x2 .f32) (x1 x2 : FVec Ideal S2x2x256x512 .f32) (pp : Fin 2) (b : Fin 256) : Row where
  x k := x0 (ix3 pp b k)
  h0 k := x1 (ix4 pp (0 : Fin 2) b k)
  c0 k := x2 (ix4 pp (0 : Fin 2) b k)
  h1 k := x1 (ix4 pp (1 : Fin 2) b k)
  c1 k := x2 (ix4 pp (1 : Fin 2) b k)

/-! ## The two matrix products' coordinate facts -/

abbrev dotX := dot_S512x2_S2x2048_S512x2048_1_0_0_1_n_n
abbrev dotH := dot_S512x512_S512x2048_S512x2048_1_0_0_1_n_n

theorem dotX_l0 (i : S512x2048.Idx) (q : dotX.contr.Idx) : (dotX.lhsIdx i q 0).val = (i 0).val := by
  unfold DotDims.lhsIdx
  rw [dif_neg (show ¬(0 : Fin S512x2.rank) ∈ dotX.lhsBatch by decide), dif_pos (show (0 : Fin S512x2.rank) ∈ dotX.lhsNonContracting by decide)]
  rfl
theorem dotX_l1 (i : S512x2048.Idx) (q : dotX.contr.Idx) : (dotX.lhsIdx i q 1).val = (q ⟨0, by decide⟩).val :=
  dotX.lhsIdx_val_of_single rfl i q
theorem dotX_r0 (i : S512x2048.Idx) (q : dotX.contr.Idx) : (dotX.rhsIdx i q 0).val = (q ⟨0, by decide⟩).val :=
  dotX.rhsIdx_val_of_single rfl i q
theorem dotX_r1 (i : S512x2048.Idx) (q : dotX.contr.Idx) : (dotX.rhsIdx i q 1).val = (i 1).val := by
  unfold DotDims.rhsIdx
  rw [dif_neg (show ¬(1 : Fin S2x2048.rank) ∈ dotX.rhsBatch by decide), dif_pos (show (1 : Fin S2x2048.rank) ∈ dotX.rhsNonContracting by decide)]
  rfl

theorem dotH_l0 (i : S512x2048.Idx) (q : dotH.contr.Idx) : (dotH.lhsIdx i q 0).val = (i 0).val := by
  unfold DotDims.lhsIdx
  rw [dif_neg (show ¬(0 : Fin S512x512.rank) ∈ dotH.lhsBatch by decide), dif_pos (show (0 : Fin S512x512.rank) ∈ dotH.lhsNonContracting by decide)]
  rfl
theorem dotH_l1 (i : S512x2048.Idx) (q : dotH.contr.Idx) : (dotH.lhsIdx i q 1).val = (q ⟨0, by decide⟩).val :=
  dotH.lhsIdx_val_of_single rfl i q
theorem dotH_r0 (i : S512x2048.Idx) (q : dotH.contr.Idx) : (dotH.rhsIdx i q 0).val = (q ⟨0, by decide⟩).val :=
  dotH.rhsIdx_val_of_single rfl i q
theorem dotH_r1 (i : S512x2048.Idx) (q : dotH.contr.Idx) : (dotH.rhsIdx i q 1).val = (i 1).val := by
  unfold DotDims.rhsIdx
  rw [dif_neg (show ¬(1 : Fin S512x2048.rank) ∈ dotH.rhsBatch by decide), dif_pos (show (1 : Fin S512x2048.rank) ∈ dotH.rhsNonContracting by decide)]
  rfl

/-- The input product into a zero accumulator, at (row r, column n): the sum over the 2 input coordinates. -/
theorem prodX_apply (l : FVec Ideal S512x2 .f32) (w : FVec Ideal S2x2048 .f32) (r : Fin 512) (n : Fin 2048) :
    matmul dotX (some .fp32) l w (constant (F := Ideal) S512x2048 .f32 0x00000000#32) (ix2 r n)
      = ∑ k : Fin 2, l (ix2 r k) * w (ix2 k n) :=
  Cert.GraphConv.matmul_zero_sum dotX (some .fp32) rfl rfl dotX_l0 dotX_l1 dotX_r0 dotX_r1 l w (ix2 r n)

/-- A recurrent product into a zero accumulator, at (row r, column n): the sum over the 512 hidden units. -/
theorem prodH_apply (l : FVec Ideal S512x512 .f32) (w : FVec Ideal S512x2048 .f32) (r : Fin 512) (n : Fin 2048) :
    matmul dotH (some .fp32) l w (constant (F := Ideal) S512x2048 .f32 0x00000000#32) (ix2 r n)
      = ∑ k : Fin 512, l (ix2 r k) * w (ix2 k n) :=
  Cert.GraphConv.matmul_zero_sum dotH (some .fp32) rfl rfl dotH_l0 dotH_l1 dotH_r0 dotH_r1 l w (ix2 r n)

/-- Four vectors added left to right, read at an index. -/
theorem add4_apply {s : Shape} (A B C D : FVec Ideal s .f32) (i : s.Idx) :
    addf (addf (addf A B) C) D i = A i + B i + C i + D i := rfl

/-! ## The body's values at row (pp, b) -/

section Tile

variable (x0 : FVec Ideal S2x256x2 .f32) (x1 x2 : FVec Ideal S2x2x256x512 .f32) (x3 : FVec Ideal S2x2048 .f32)
  (x4 : FVec Ideal S512x2048 .f32) (x5 x6 : FVec Ideal S1x2048 .f32) (x7 x8 : FVec Ideal S512x2048 .f32)
  (x9 x10 : FVec Ideal S1x2048 .f32) (pp : Fin 2) (b : Fin 256)

local notation "W" => tileWeights x3 x4 x5 x6 x7 x8 x9 x10
local notation "R" => tileRow x0 x1 x2 pp b

/-- Layer 0's old cell state, flattened. -/
theorem pay4_apply (k : Fin 512) : k0_pay4 (F := Ideal) x2 (ix2 (rowIx pp b) k) = x2 (ix4 pp (0 : Fin 2) b k) := by
  unfold k0_pay4
  exact flatState_apply x2 0 (0 : Fin 2) rfl _ _ _ pp b k

/-- Layer 1's old hidden state, flattened. -/
theorem pay5_apply (k : Fin 512) : k0_pay5 (F := Ideal) x1 (ix2 (rowIx pp b) k) = x1 (ix4 pp (1 : Fin 2) b k) := by
  unfold k0_pay5
  exact flatState_apply x1 1 (1 : Fin 2) rfl _ _ _ pp b k

/-- Layer 1's old cell state, flattened. -/
theorem pay6_apply (k : Fin 512) : k0_pay6 (F := Ideal) x2 (ix2 (rowIx pp b) k) = x2 (ix4 pp (1 : Fin 2) b k) := by
  unfold k0_pay6
  exact flatState_apply x2 1 (1 : Fin 2) rfl _ _ _ pp b k

/-- Layer 0's gate pre-activations at row (pp, b), column n. -/
theorem pay7_apply (n : Fin 2048) :
    k0_pay7 (F := Ideal) x0 x1 x3 x4 x5 x6 (ix2 (rowIx pp b) n) = pre0 W R n := by
  unfold k0_pay7
  refine (add4_apply _ _ _ _ _).trans ?_
  unfold pre0 preAct
  refine congrArg₂ (· + ·) (congrArg₂ (· + ·) (congrArg₂ (· + ·) ?_ ?_) ?_) ?_
  · refine (prodX_apply _ _ _ _).trans (Finset.sum_congr rfl fun k _ => ?_)
    exact congrArg₂ (· * ·) ((flatX_apply _ _ pp b k).trans (congrFun (shapeCast_self x0 _) _))
      (congrFun (shapeCast_self x3 _) _)
  · refine (prodH_apply _ _ _ _).trans (Finset.sum_congr rfl fun k _ => ?_)
    exact congrArg₂ (· * ·) (flatState_apply x1 0 (0 : Fin 2) rfl _ _ _ pp b k) (congrFun (shapeCast_self x4 _) _)
  · exact biasRow_apply x5 _ _ _ n
  · exact biasRow_apply x6 _ _ _ n

/-- The candidate-gate columns of layer 0's pre-activations. -/
theorem pay8_apply (j : Fin 512) :
    k0_pay8 (F := Ideal) x0 x1 x3 x4 x5 x6 (ix2 (rowIx pp b) j) = pre0 W R (col 2 j) := by
  unfold k0_pay8
  exact (gateCols_apply _ 1024 _ (rowIx pp b) j (col 2 j) rfl).trans (pay7_apply x0 x1 x2 x3 x4 x5 x6 x7 x8 x9 x10 pp b _)

/-- The output-gate columns of layer 0's pre-activations. -/
theorem pay9_apply (j : Fin 512) :
    k0_pay9 (F := Ideal) x0 x1 x3 x4 x5 x6 (ix2 (rowIx pp b) j) = pre0 W R (col 3 j) := by
  unfold k0_pay9
  exact (gateCols_apply _ 1536 _ (rowIx pp b) j (col 3 j) rfl).trans (pay7_apply x0 x1 x2 x3 x4 x5 x6 x7 x8 x9 x10 pp b _)

/-- Layer 0's input gate. -/
theorem pay10_apply (j : Fin 512) :
    k0_pay10 (F := Ideal) x0 x1 x3 x4 x5 x6 (ix2 (rowIx pp b) j) = Ideal.logistic (pre0 W R (col 0 j)) := by
  unfold k0_pay10
  exact congrArg Ideal.logistic ((gateCols_apply _ 0 _ (rowIx pp b) j (col 0 j) (by simp)).trans
    (pay7_apply x0 x1 x2 x3 x4 x5 x6 x7 x8 x9 x10 pp b _))

/-- Layer 0's forget gate. -/
theorem pay11_apply (j : Fin 512) :
    k0_pay11 (F := Ideal) x0 x1 x3 x4 x5 x6 (ix2 (rowIx pp b) j) = Ideal.logistic (pre0 W R (col 1 j)) := by
  unfold k0_pay11
  exact congrArg Ideal.logistic ((gateCols_apply _ 512 _ (rowIx pp b) j (col 1 j) (by simp)).trans
    (pay7_apply x0 x1 x2 x3 x4 x5 x6 x7 x8 x9 x10 pp b _))

/-- The body's new cell state of layer 0, over any four operand vectors, at an index. -/
theorem pay12_at (v10 v34 v36 v37 : FVec Ideal S512x512 .f32) (i : S512x512.Idx) :
    k0_pay12 (F := Ideal) v10 v34 v36 v37 i = v37 i * v10 i + v36 i * Ideal.tanh (v34 i) := rfl

/-- The body's new hidden state of layer 0, over any five operand vectors, at an index. -/
theorem pay13_at (v10 v34 v35 v36 v37 : FVec Ideal S512x512 .f32) (i : S512x512.Idx) :
    k0_pay13 (F := Ideal) v10 v34 v35 v36 v37 i = Ideal.logistic (v35 i) * Ideal.tanh (k0_pay12 (F := Ideal) v10 v34 v36 v37 i) := rfl

/-- Layer 0's new cell state at row (pp, b), unit j. -/
theorem newC0_apply (j : Fin 512) :
    k0_pay12 (F := Ideal) (k0_pay4 x2) (k0_pay8 x0 x1 x3 x4 x5 x6) (k0_pay10 x0 x1 x3 x4 x5 x6) (k0_pay11 x0 x1 x3 x4 x5 x6)
      (ix2 (rowIx pp b) j) = newC0 W R j := by
  rw [pay12_at, pay11_apply x0 x1 x2 x3 x4 x5 x6 x7 x8 x9 x10, pay4_apply, pay10_apply x0 x1 x2 x3 x4 x5 x6 x7 x8 x9 x10,
    pay8_apply x0 x1 x2 x3 x4 x5 x6 x7 x8 x9 x10]
  rfl

/-- Layer 0's new hidden state at row (pp, b), unit j. -/
theorem newH0_apply (j : Fin 512) :
    k0_pay13 (F := Ideal) (k0_pay4 x2) (k0_pay8 x0 x1 x3 x4 x5 x6) (k0_pay9 x0 x1 x3 x4 x5 x6) (k0_pay10 x0 x1 x3 x4 x5 x6)
      (k0_pay11 x0 x1 x3 x4 x5 x6) (ix2 (rowIx pp b) j) = newH0 W R j := by
  rw [pay13_at, newC0_apply x0 x1 x2 x3 x4 x5 x6 x7 x8 x9 x10, pay9_apply x0 x1 x2 x3 x4 x5 x6 x7 x8 x9 x10]
  rfl

/-! ### Layer 1 -/

local notation "A10" => k0_pay4 (F := Ideal) x2
local notation "A13" => k0_pay5 (F := Ideal) x1
local notation "A16" => k0_pay6 (F := Ideal) x2
local notation "A34" => k0_pay8 (F := Ideal) x0 x1 x3 x4 x5 x6
local notation "A35" => k0_pay9 (F := Ideal) x0 x1 x3 x4 x5 x6
local notation "A36" => k0_pay10 (F := Ideal) x0 x1 x3 x4 x5 x6
local notation "A37" => k0_pay11 (F := Ideal) x0 x1 x3 x4 x5 x6

/-- Layer 1's gate pre-activations at row (pp, b), column n: its input vector is layer 0's new hidden state. -/
theorem pay14_apply (n : Fin 2048) :
    k0_pay14 (F := Ideal) A10 A13 A34 A35 A36 A37 x7 x8 x9 x10 (ix2 (rowIx pp b) n) = pre1 W R n := by
  unfold k0_pay14
  refine (add4_apply _ _ _ _ _).trans ?_
  unfold pre1 preAct
  refine congrArg₂ (· + ·) (congrArg₂ (· + ·) (congrArg₂ (· + ·) ?_ ?_) ?_) ?_
  · refine (prodH_apply _ _ _ _).trans (Finset.sum_congr rfl fun k _ => ?_)
    exact congrArg₂ (· * ·) (newH0_apply x0 x1 x2 x3 x4 x5 x6 x7 x8 x9 x10 pp b k) (congrFun (shapeCast_self x7 _) _)
  · refine (prodH_apply _ _ _ _).trans (Finset.sum_congr rfl fun k _ => ?_)
    exact congrArg₂ (· * ·) (pay5_apply x1 pp b k) (congrFun (shapeCast_self x8 _) _)
  · exact biasRow_apply x9 _ _ _ n
  · exact biasRow_apply x10 _ _ _ n

/-- A cell state formed from four vectors, at an index. -/
theorem cellC_vec {s : Shape} (gi gf gg c : FVec Ideal s .f32) (i : s.Idx) :
    addf (mulf (logistic gf) c) (mulf (logistic gi) (tanh gg)) i = cellC (gi i) (gf i) (gg i) (c i) := rfl

/-- A hidden state formed from two vectors, at an index. -/
theorem cellH_vec {s : Shape} (go c' : FVec Ideal s .f32) (i : s.Idx) :
    mulf (logistic go) (tanh c') i = cellH (go i) (c' i) := rfl

/-- Layer 1's new cell state at row (pp, b), unit j. -/
theorem newC1_apply (j : Fin 512) :
    k0_pay15 (F := Ideal) A10 A13 A16 A34 A35 A36 A37 x7 x8 x9 x10 (ix2 (rowIx pp b) j) = newC1 W R j := by
  unfold k0_pay15
  refine (cellC_vec _ _ _ _ _).trans ?_
  unfold newC1
  refine cellC_congr ?_ ?_ ?_ (pay6_apply x2 pp b j)
  · exact (gateCols_apply _ 0 _ (rowIx pp b) j (col 0 j) (by simp)).trans (pay14_apply x0 x1 x2 x3 x4 x5 x6 x7 x8 x9 x10 pp b (col 0 j))
  · exact (gateCols_apply _ 512 _ (rowIx pp b) j (col 1 j) (by simp)).trans (pay14_apply x0 x1 x2 x3 x4 x5 x6 x7 x8 x9 x10 pp b (col 1 j))
  · exact (gateCols_apply _ 1024 _ (rowIx pp b) j (col 2 j) rfl).trans (pay14_apply x0 x1 x2 x3 x4 x5 x6 x7 x8 x9 x10 pp b (col 2 j))

/-- Layer 1's new hidden state, shaped [2, 256, 512], at (pp, b, j). -/
theorem newH1_apply (j : Fin 512) :
    k0_pay17 (F := Ideal) A10 A13 A16 A34 A35 A36 A37 x7 x8 x9 x10 (ix3 pp b j) = newH1 W R j := by
  unfold k0_pay17
  refine (unflat2_apply _ _ pp b j).trans ?_
  refine (cellH_vec _ _ _).trans ?_
  unfold newH1
  exact cellH_congr ((gateCols_apply _ 1536 _ (rowIx pp b) j (col 3 j) rfl).trans (pay14_apply x0 x1 x2 x3 x4 x5 x6 x7 x8 x9 x10 pp b (col 3 j)))
    (newC1_apply x0 x1 x2 x3 x4 x5 x6 x7 x8 x9 x10 pp b j)

/-! ### What the four stores write, at pedestrian pp, batch element b, unit j -/

/-- The store to the hidden-state block's layer 1. -/
theorem storeH1_apply (j : Fin 512) :
    k0_pay1 (F := Ideal) (k0_pay17 A10 A13 A16 A34 A35 A36 A37 x7 x8 x9 x10) (ix4 pp (0 : Fin 1) b j) = newH1 W R j := by
  unfold k0_pay1
  exact (unflat3_apply _ _ pp b j).trans (newH1_apply x0 x1 x2 x3 x4 x5 x6 x7 x8 x9 x10 pp b j)

/-- The store to the hidden-state block's layer 0. -/
theorem storeH0_apply (j : Fin 512) :
    k0_pay16 (F := Ideal) A10 A34 A35 A36 A37 (ix4 pp (0 : Fin 1) b j) = newH0 W R j := by
  unfold k0_pay16
  exact (unflat_apply _ _ _ pp b j).trans (newH0_apply x0 x1 x2 x3 x4 x5 x6 x7 x8 x9 x10 pp b j)

/-- The store to the cell-state block's layer 1. -/
theorem storeC1_apply (j : Fin 512) :
    k0_pay3 (F := Ideal) (k0_pay15 A10 A13 A16 A34 A35 A36 A37 x7 x8 x9 x10) (ix4 pp (0 : Fin 1) b j) = newC1 W R j := by
  unfold k0_pay3
  exact (unflat_apply _ _ _ pp b j).trans (newC1_apply x0 x1 x2 x3 x4 x5 x6 x7 x8 x9 x10 pp b j)

/-- The store to the cell-state block's layer 0. -/
theorem storeC0_apply (j : Fin 512) :
    k0_pay2 (F := Ideal) (k0_pay12 A10 A34 A36 A37) (ix4 pp (0 : Fin 1) b j) = newC0 W R j := by
  unfold k0_pay2
  exact (unflat_apply _ _ _ pp b j).trans (newC0_apply x0 x1 x2 x3 x4 x5 x6 x7 x8 x9 x10 pp b j)

end Tile

end Cert.Lstm

end
-- ==== Proof.TileBlock.lean ====
/-
  What the body leaves in each output block, as one function of the block index.

  The body writes each output block [2, 2, 256, 512] by two stores, one per layer: the slab at layer coordinate 0
  receives layer 0's new state and the slab at layer coordinate 1 receives layer 1's. The two slabs tile the block, so
  after the body the block holds, at (pp, l, b, j), layer l's new state of row (pp, b) at unit j.
-/
import proofs.«101591_j15547781612107_2_alg».proof.Proof.TileCell
import proofs.«101591_j15547781612107_2_alg».proof.Proof.Gen.KernelIdeal.Frame
import Idealize.ShloMosaic.Lib.Pipeline.Value

noncomputable section

namespace Cert.Lstm

open Idealize.ShloMosaic Idealize.ShloMosaic.ValueIdx Cert.KernelIdeal Cert.KernelIdeal.Gen

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

section Tile

variable (x0 : FVec Ideal S2x256x2 .f32) (x1 x2 : FVec Ideal S2x2x256x512 .f32) (x3 : FVec Ideal S2x2048 .f32)
  (x4 : FVec Ideal S512x2048 .f32) (x5 x6 : FVec Ideal S1x2048 .f32) (x7 x8 : FVec Ideal S512x2048 .f32)
  (x9 x10 : FVec Ideal S1x2048 .f32)

local notation "W" => tileWeights x3 x4 x5 x6 x7 x8 x9 x10

/-- The new hidden states of a tile, [2, 2, 256, 512]. -/
def tileHn : FVec Ideal S2x2x256x512 .f32 := fun y =>
  if (y 1).val = 0 then newH0 W (tileRow x0 x1 x2 (y 0) (y 2)) (y 3) else newH1 W (tileRow x0 x1 x2 (y 0) (y 2)) (y 3)

/-- The new cell states of a tile, [2, 2, 256, 512]. -/
def tileCn : FVec Ideal S2x2x256x512 .f32 := fun y =>
  if (y 1).val = 0 then newC0 W (tileRow x0 x1 x2 (y 0) (y 2)) (y 3) else newC1 W (tileRow x0 x1 x2 (y 0) (y 2)) (y 3)

/-- The layer-0 slab's position (pp, 0, b, j) in the block. -/
theorem emb_layer0 (pp : Fin 2) (b : Fin 256) (j : Fin 512) :
    r0_5.emb (ix4 pp (0 : Fin 1) b j) = ix4 pp (0 : Fin 2) b j := by
  funext a; apply Fin.ext
  match a with
  | ⟨0, _⟩ => show 0 + 1 * pp.val = pp.val; omega
  | ⟨1, _⟩ => show 0 + 1 * 0 = 0; omega
  | ⟨2, _⟩ => show 0 + 1 * b.val = b.val; omega
  | ⟨3, _⟩ => show 0 + 1 * j.val = j.val; omega

/-- The layer-1 slab's position (pp, 0, b, j) in the block. -/
theorem emb_layer1 (pp : Fin 2) (b : Fin 256) (j : Fin 512) :
    r0_6.emb (ix4 pp (0 : Fin 1) b j) = ix4 pp (1 : Fin 2) b j := by
  funext a; apply Fin.ext
  match a with
  | ⟨0, _⟩ => show 0 + 1 * pp.val = pp.val; omega
  | ⟨1, _⟩ => show 1 + 1 * 0 = 1; omega
  | ⟨2, _⟩ => show 0 + 1 * b.val = b.val; omega
  | ⟨3, _⟩ => show 0 + 1 * j.val = j.val; omega

local notation "A10" => k0_pay4 (F := Ideal) x2
local notation "A13" => k0_pay5 (F := Ideal) x1
local notation "A16" => k0_pay6 (F := Ideal) x2
local notation "A34" => k0_pay8 (F := Ideal) x0 x1 x3 x4 x5 x6
local notation "A35" => k0_pay9 (F := Ideal) x0 x1 x3 x4 x5 x6
local notation "A36" => k0_pay10 (F := Ideal) x0 x1 x3 x4 x5 x6
local notation "A37" => k0_pay11 (F := Ideal) x0 x1 x3 x4 x5 x6

/-- Every index of a slab [2, 1, 256, 512] is some (pp, 0, b, j). -/
theorem slab_idx (x : S2x1x256x512.Idx) : ∃ (pp : Fin 2) (b : Fin 256) (j : Fin 512), x = ix4 pp (0 : Fin 1) b j := by
  obtain ⟨pp, u, b, j, rfl⟩ : ∃ (pp : Fin 2) (u : Fin 1) (b : Fin 256) (j : Fin 512), x = ix4 pp u b j :=
    ⟨x 0, x 1, x 2, x 3, eq_ix4 x⟩
  obtain rfl : u = 0 := Subsingleton.elim _ _
  exact ⟨pp, b, j, rfl⟩

/-- The hidden-state block's layer-1 store writes the block function's layer-1 slab. -/
theorem pieceH1 (x : S2x1x256x512.Idx) :
    k0_pay1 (F := Ideal) (k0_pay17 A10 A13 A16 A34 A35 A36 A37 x7 x8 x9 x10) x
      = tileHn x0 x1 x2 x3 x4 x5 x6 x7 x8 x9 x10 (r0_6.emb x) := by
  obtain ⟨pp, b, j, rfl⟩ := slab_idx x
  rw [emb_layer1]
  refine (storeH1_apply x0 x1 x2 x3 x4 x5 x6 x7 x8 x9 x10 pp b j).trans ?_
  show _ = if ((ix4 pp (1 : Fin 2) b j) 1).val = 0 then _ else _
  rw [if_neg (show ¬((ix4 pp (1 : Fin 2) b j) 1).val = 0 from Nat.one_ne_zero)]

/-- The hidden-state block's layer-0 store writes the block function's layer-0 slab. -/
theorem pieceH0 (x : S2x1x256x512.Idx) :
    k0_pay16 (F := Ideal) A10 A34 A35 A36 A37 x = tileHn x0 x1 x2 x3 x4 x5 x6 x7 x8 x9 x10 (r0_5.emb x) := by
  obtain ⟨pp, b, j, rfl⟩ := slab_idx x
  rw [emb_layer0]
  refine (storeH0_apply x0 x1 x2 x3 x4 x5 x6 x7 x8 x9 x10 pp b j).trans ?_
  show _ = if ((ix4 pp (0 : Fin 2) b j) 1).val = 0 then _ else _
  rw [if_pos (show ((ix4 pp (0 : Fin 2) b j) 1).val = 0 from rfl)]

/-- The cell-state block's layer-1 store writes the block function's layer-1 slab. -/
theorem pieceC1 (x : S2x1x256x512.Idx) :
    k0_pay3 (F := Ideal) (k0_pay15 A10 A13 A16 A34 A35 A36 A37 x7 x8 x9 x10) x
      = tileCn x0 x1 x2 x3 x4 x5 x6 x7 x8 x9 x10 (r0_6.emb x) := by
  obtain ⟨pp, b, j, rfl⟩ := slab_idx x
  rw [emb_layer1]
  refine (storeC1_apply x0 x1 x2 x3 x4 x5 x6 x7 x8 x9 x10 pp b j).trans ?_
  show _ = if ((ix4 pp (1 : Fin 2) b j) 1).val = 0 then _ else _
  rw [if_neg (show ¬((ix4 pp (1 : Fin 2) b j) 1).val = 0 from Nat.one_ne_zero)]

/-- The cell-state block's layer-0 store writes the block function's layer-0 slab. -/
theorem pieceC0 (x : S2x1x256x512.Idx) :
    k0_pay2 (F := Ideal) (k0_pay12 A10 A34 A36 A37) x = tileCn x0 x1 x2 x3 x4 x5 x6 x7 x8 x9 x10 (r0_5.emb x) := by
  obtain ⟨pp, b, j, rfl⟩ := slab_idx x
  rw [emb_layer0]
  refine (storeC0_apply x0 x1 x2 x3 x4 x5 x6 x7 x8 x9 x10 pp b j).trans ?_
  show _ = if ((ix4 pp (0 : Fin 2) b j) 1).val = 0 then _ else _
  rw [if_pos (show ((ix4 pp (0 : Fin 2) b j) 1).val = 0 from rfl)]

/-- After the body the hidden-state block holds the tile's new hidden states. -/
theorem out0_11_eq :
    out0_11 (F := Ideal) x0 x1 x2 x3 x4 x5 x6 x7 x8 x9 x10 = tileHn x0 x1 x2 x3 x4 x5 x6 x7 x8 x9 x10 := by
  funext y
  unfold out0_11
  simp only [View.ld_unit_zero (S := S2x256x2) zeros3, View.ld_unit_zero (S := S2x2x256x512) zeros4,
    View.ld_unit_zero (S := S2x2048) zeros2, View.ld_unit_zero (S := S512x2048) zeros2,
    View.ld_unit_zero (S := S1x2048) zeros2]
  refine View.canon_apply_of_pieces (Val := Elt Ideal) (tileHn x0 x1 x2 x3 x4 x5 x6 x7 x8 x9 x10) _ ?_ y (cover0_11 _ _ y)
  intro p hp
  simp only [List.mem_cons, List.mem_nil_iff, or_false] at hp
  rcases hp with rfl | rfl
  · exact pieceH1 x0 x1 x2 x3 x4 x5 x6 x7 x8 x9 x10
  · exact pieceH0 x0 x1 x2 x3 x4 x5 x6 x7 x8 x9 x10

/-- After the body the cell-state block holds the tile's new cell states. -/
theorem out0_12_eq :
    out0_12 (F := Ideal) x0 x1 x2 x3 x4 x5 x6 x7 x8 x9 x10 = tileCn x0 x1 x2 x3 x4 x5 x6 x7 x8 x9 x10 := by
  funext y
  unfold out0_12
  simp only [View.ld_unit_zero (S := S2x256x2) zeros3, View.ld_unit_zero (S := S2x2x256x512) zeros4,
    View.ld_unit_zero (S := S2x2048) zeros2, View.ld_unit_zero (S := S512x2048) zeros2,
    View.ld_unit_zero (S := S1x2048) zeros2]
  refine View.canon_apply_of_pieces (Val := Elt Ideal) (tileCn x0 x1 x2 x3 x4 x5 x6 x7 x8 x9 x10) _ ?_ y (cover0_12 _ _ y)
  intro p hp
  simp only [List.mem_cons, List.mem_nil_iff, or_false] at hp
  rcases hp with rfl | rfl
  · exact pieceC1 x0 x1 x2 x3 x4 x5 x6 x7 x8 x9 x10
  · exact pieceC0 x0 x1 x2 x3 x4 x5 x6 x7 x8 x9 x10

end Tile

end Cert.Lstm

end
-- ==== Proof.LstmSpec.lean ====
/-
  The three results of the two-layer LSTM step as whole-array functions of the eleven argument arrays.

  The input traces are [batch 256, pedestrian 64, 2]; the old hidden and cell states are [pedestrian 64, layer 2,
  batch 256, 512]; the weight matrices are [2048, inputs] and the biases [2048]. Row (p, b) of the cell is pedestrian
  p's batch element b. The new hidden and cell states come back in the states' own layout, layer 0's at layer
  coordinate 0 and layer 1's at 1, and the output is layer 1's new hidden state as [batch, pedestrian, 512].
-/
import proofs.«101591_j15547781612107_2_alg».proof.Proof.LstmCell
import Idealize.ShloMosaic.Lib.ValueIdx

noncomputable section

namespace Cert.Lstm

open Idealize.ShloMosaic Idealize.ShloMosaic.ValueIdx

/-- The eleven argument arrays, as functions of their indices. -/
structure Args where
  x : (⟨3, ![256, 64, 2]⟩ : Shape).Idx → EReal
  h : (⟨4, ![64, 2, 256, 512]⟩ : Shape).Idx → EReal
  c : (⟨4, ![64, 2, 256, 512]⟩ : Shape).Idx → EReal
  wi0 : (⟨2, ![2048, 2]⟩ : Shape).Idx → EReal
  wh0 : (⟨2, ![2048, 512]⟩ : Shape).Idx → EReal
  bi0 : (⟨1, ![2048]⟩ : Shape).Idx → EReal
  bh0 : (⟨1, ![2048]⟩ : Shape).Idx → EReal
  wi1 : (⟨2, ![2048, 512]⟩ : Shape).Idx → EReal
  wh1 : (⟨2, ![2048, 512]⟩ : Shape).Idx → EReal
  bi1 : (⟨1, ![2048]⟩ : Shape).Idx → EReal
  bh1 : (⟨1, ![2048]⟩ : Shape).Idx → EReal

variable (a : Args)

/-- The weights read off the argument arrays. -/
def weightsOf : Weights where
  wi0 n k := a.wi0 (ix2 n k)
  wh0 n k := a.wh0 (ix2 n k)
  bi0 n := a.bi0 (ix1 n)
  bh0 n := a.bh0 (ix1 n)
  wi1 n k := a.wi1 (ix2 n k)
  wh1 n k := a.wh1 (ix2 n k)
  bi1 n := a.bi1 (ix1 n)
  bh1 n := a.bh1 (ix1 n)

/-- Row (p, b): pedestrian p's batch element b. -/
def rowOf (p : Fin 64) (b : Fin 256) : Row where
  x k := a.x (ix3 b p k)
  h0 k := a.h (ix4 p 0 b k)
  c0 k := a.c (ix4 p 0 b k)
  h1 k := a.h (ix4 p 1 b k)
  c1 k := a.c (ix4 p 1 b k)

/-- The new hidden states, [pedestrian, layer, batch, 512]. -/
def specHn : (⟨4, ![64, 2, 256, 512]⟩ : Shape).Idx → EReal := fun i =>
  if (i 1).val = 0 then newH0 (weightsOf a) (rowOf a (i 0) (i 2)) (i 3) else newH1 (weightsOf a) (rowOf a (i 0) (i 2)) (i 3)

/-- The new cell states, [pedestrian, layer, batch, 512]. -/
def specCn : (⟨4, ![64, 2, 256, 512]⟩ : Shape).Idx → EReal := fun i =>
  if (i 1).val = 0 then newC0 (weightsOf a) (rowOf a (i 0) (i 2)) (i 3) else newC1 (weightsOf a) (rowOf a (i 0) (i 2)) (i 3)

/-- The output, [batch, pedestrian, 512]: layer 1's new hidden state. -/
def specOut : (⟨3, ![256, 64, 512]⟩ : Shape).Idx → EReal := fun i =>
  newH1 (weightsOf a) (rowOf a (i 1) (i 0)) (i 2)

end Cert.Lstm

end
-- ==== Proof.KernBlocks.lean ====
/-
  The blocks the kernel's grid points see, read off the argument arrays.

  Before the region the host transposes the input traces to [pedestrian, batch, 2] and each weight matrix to
  [inputs, 2048], and reshapes each bias to one row [1, 2048]. The grid has 32 points; point t stages pedestrians 2t and
  2t + 1 of the transposed traces and of the two state arrays, and the whole of every weight operand. So at point t
  the staged row (pp, b) is row (2t + pp, b) of the arguments, and the staged weights are the arguments' weights.
-/
import proofs.«101591_j15547781612107_2_alg».proof.Proof.TileBlock
import proofs.«101591_j15547781612107_2_alg».proof.Proof.LstmSpec
import Idealize.ShloMosaic.Lib.StableHlo.Run
import Idealize.ShloMosaic.Lib.ValueLayout

set_option maxRecDepth 16384

noncomputable section

namespace Cert.Lstm.Kern

open Cert.Lstm Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The eleven argument arrays on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

/-- The grid point as a number below 32. -/
def pointIx (t : Fin cfg0.N) : Fin 32 := ⟨t.val, Nat.lt_of_lt_of_eq t.isLt (show cfg0.N = 32 from N_0)⟩

@[simp] theorem pointIx_val (t : Fin cfg0.N) : (pointIx t).val = t.val := rfl

/-- Pedestrian 2T + pp: the pp-th of the two that point T stages. -/
def pedOf (T : Fin 32) (pp : Fin 2) : Fin 64 := ⟨2 * T.val + pp.val, by have := T.isLt; have := pp.isLt; omega⟩

@[simp] theorem pedOf_val (T : Fin 32) (pp : Fin 2) : (pedOf T pp).val = 2 * T.val + pp.val := rfl

/-! ## A tile's block functions are blocks of the whole-array results -/

section Blocks

variable (a : Args) (T : Fin 32)
  (x0 : FVec Ideal S2x256x2 .f32) (x1 x2 : FVec Ideal S2x2x256x512 .f32) (x3 : FVec Ideal S2x2048 .f32)
  (x4 : FVec Ideal S512x2048 .f32) (x5 x6 : FVec Ideal S1x2048 .f32) (x7 x8 : FVec Ideal S512x2048 .f32)
  (x9 x10 : FVec Ideal S1x2048 .f32)
  (hW : tileWeights x3 x4 x5 x6 x7 x8 x9 x10 = weightsOf a)
  (hR : ∀ (pp : Fin 2) (b : Fin 256), tileRow x0 x1 x2 pp b = rowOf a (pedOf T pp) b)

include hW hR

/-- Where the block index y sits at array index i (pedestrian 2T + y 0, the other coordinates equal), the tile's new
    hidden state at y is the whole array's at i. -/
theorem tileHn_spec (y : S2x2x256x512.Idx) (i : (⟨4, ![64, 2, 256, 512]⟩ : Shape).Idx)
    (h0 : (i 0).val = 2 * T.val + (y 0).val) (h1 : (i 1).val = (y 1).val) (h2 : (i 2).val = (y 2).val)
    (h3 : (i 3).val = (y 3).val) :
    tileHn x0 x1 x2 x3 x4 x5 x6 x7 x8 x9 x10 y = specHn a i := by
  obtain ⟨pp, l, b, j, rfl⟩ : ∃ (pp : Fin 2) (l : Fin 2) (b : Fin 256) (j : Fin 512), y = ix4 pp l b j :=
    ⟨y 0, y 1, y 2, y 3, eq_ix4 y⟩
  obtain ⟨P, l', b', j', rfl⟩ : ∃ (P : Fin 64) (l' : Fin 2) (b' : Fin 256) (j' : Fin 512), i = ix4 P l' b' j' :=
    ⟨i 0, i 1, i 2, i 3, eq_ix4 i⟩
  obtain rfl : P = pedOf T pp := Fin.ext h0
  obtain rfl : l' = l := Fin.ext h1
  obtain rfl : b' = b := Fin.ext h2
  obtain rfl : j' = j := Fin.ext h3
  show (if l'.val = 0 then newH0 (tileWeights x3 x4 x5 x6 x7 x8 x9 x10) (tileRow x0 x1 x2 pp b') j'
      else newH1 (tileWeights x3 x4 x5 x6 x7 x8 x9 x10) (tileRow x0 x1 x2 pp b') j')
    = (if l'.val = 0 then newH0 (weightsOf a) (rowOf a (pedOf T pp) b') j' else newH1 (weightsOf a) (rowOf a (pedOf T pp) b') j')
  rw [hW, hR]

/-- The same for the new cell states. -/
theorem tileCn_spec (y : S2x2x256x512.Idx) (i : (⟨4, ![64, 2, 256, 512]⟩ : Shape).Idx)
    (h0 : (i 0).val = 2 * T.val + (y 0).val) (h1 : (i 1).val = (y 1).val) (h2 : (i 2).val = (y 2).val)
    (h3 : (i 3).val = (y 3).val) :
    tileCn x0 x1 x2 x3 x4 x5 x6 x7 x8 x9 x10 y = specCn a i := by
  obtain ⟨pp, l, b, j, rfl⟩ : ∃ (pp : Fin 2) (l : Fin 2) (b : Fin 256) (j : Fin 512), y = ix4 pp l b j :=
    ⟨y 0, y 1, y 2, y 3, eq_ix4 y⟩
  obtain ⟨P, l', b', j', rfl⟩ : ∃ (P : Fin 64) (l' : Fin 2) (b' : Fin 256) (j' : Fin 512), i = ix4 P l' b' j' :=
    ⟨i 0, i 1, i 2, i 3, eq_ix4 i⟩
  obtain rfl : P = pedOf T pp := Fin.ext h0
  obtain rfl : l' = l := Fin.ext h1
  obtain rfl : b' = b := Fin.ext h2
  obtain rfl : j' = j := Fin.ext h3
  show (if l'.val = 0 then newC0 (tileWeights x3 x4 x5 x6 x7 x8 x9 x10) (tileRow x0 x1 x2 pp b') j'
      else newC1 (tileWeights x3 x4 x5 x6 x7 x8 x9 x10) (tileRow x0 x1 x2 pp b') j')
    = (if l'.val = 0 then newC0 (weightsOf a) (rowOf a (pedOf T pp) b') j' else newC1 (weightsOf a) (rowOf a (pedOf T pp) b') j')
  rw [hW, hR]

end Blocks

/-! ## The arrays the region finds -/

theorem V_v0 (c : Dev nD) : (V m c main_v0 : S64x256x2.Idx → EReal)
    = transpose S64x256x2 [1, 0, 2] (m ((c : Thread nD τ).loc main_arg0)) transposes_S256x64x2_S64x256x2_1_0_2 := by
  show StableHlo.after hostOps0 (fun b => m (c, b)) (Proc.devRef .tc main_v0) = _
  after_results

theorem V_v1 (c : Dev nD) : (V m c main_v1 : S2x2048.Idx → EReal)
    = transpose S2x2048 [1, 0] (m ((c : Thread nD τ).loc main_arg3)) transposes_S2048x2_S2x2048_1_0 := by
  show StableHlo.after hostOps0 (fun b => m (c, b)) (Proc.devRef .tc main_v1) = _
  after_results

theorem V_v2 (c : Dev nD) : (V m c main_v2 : S512x2048.Idx → EReal)
    = transpose S512x2048 [1, 0] (m ((c : Thread nD τ).loc main_arg4)) transposes_S2048x512_S512x2048_1_0 := by
  show StableHlo.after hostOps0 (fun b => m (c, b)) (Proc.devRef .tc main_v2) = _
  after_results

theorem V_v3 (c : Dev nD) : (V m c main_v3 : S512x2048.Idx → EReal)
    = transpose S512x2048 [1, 0] (m ((c : Thread nD τ).loc main_arg7)) transposes_S2048x512_S512x2048_1_0 := by
  show StableHlo.after hostOps0 (fun b => m (c, b)) (Proc.devRef .tc main_v3) = _
  after_results

theorem V_v4 (c : Dev nD) : (V m c main_v4 : S512x2048.Idx → EReal)
    = transpose S512x2048 [1, 0] (m ((c : Thread nD τ).loc main_arg8)) transposes_S2048x512_S512x2048_1_0 := by
  show StableHlo.after hostOps0 (fun b => m (c, b)) (Proc.devRef .tc main_v4) = _
  after_results

theorem V_v5 (c : Dev nD) : (V m c main_v5 : S1x2048.Idx → EReal)
    = shapeCast S1x2048 (m ((c : Thread nD τ).loc main_arg5)) shapeCasts_S2048_S1x2048 := by
  show StableHlo.after hostOps0 (fun b => m (c, b)) (Proc.devRef .tc main_v5) = _
  after_results; rfl

theorem V_v6 (c : Dev nD) : (V m c main_v6 : S1x2048.Idx → EReal)
    = shapeCast S1x2048 (m ((c : Thread nD τ).loc main_arg6)) shapeCasts_S2048_S1x2048 := by
  show StableHlo.after hostOps0 (fun b => m (c, b)) (Proc.devRef .tc main_v6) = _
  after_results; rfl

theorem V_v7 (c : Dev nD) : (V m c main_v7 : S1x2048.Idx → EReal)
    = shapeCast S1x2048 (m ((c : Thread nD τ).loc main_arg9)) shapeCasts_S2048_S1x2048 := by
  show StableHlo.after hostOps0 (fun b => m (c, b)) (Proc.devRef .tc main_v7) = _
  after_results; rfl

theorem V_v8 (c : Dev nD) : (V m c main_v8 : S1x2048.Idx → EReal)
    = shapeCast S1x2048 (m ((c : Thread nD τ).loc main_arg10)) shapeCasts_S2048_S1x2048 := by
  show StableHlo.after hostOps0 (fun b => m (c, b)) (Proc.devRef .tc main_v8) = _
  after_results; rfl

/-! ## The index maps over the grid -/

theorem idxX : ∀ t : Fin cfg0.N,
    win0_0.index t (0 : Fin 3) = t.val ∧ win0_0.index t (1 : Fin 3) = 0 ∧ win0_0.index t (2 : Fin 3) = 0 :=
  (by decide +kernel : ∀ t : Fin grid0.N, _)

theorem idxH : ∀ t : Fin cfg0.N,
    win0_1.index t (0 : Fin 4) = t.val ∧ win0_1.index t (1 : Fin 4) = 0 ∧ win0_1.index t (2 : Fin 4) = 0
      ∧ win0_1.index t (3 : Fin 4) = 0 :=
  (by decide +kernel : ∀ t : Fin grid0.N, _)

theorem idxC : ∀ t : Fin cfg0.N,
    win0_2.index t (0 : Fin 4) = t.val ∧ win0_2.index t (1 : Fin 4) = 0 ∧ win0_2.index t (2 : Fin 4) = 0
      ∧ win0_2.index t (3 : Fin 4) = 0 :=
  (by decide +kernel : ∀ t : Fin grid0.N, _)

theorem idxHn : ∀ t : Fin cfg0.N,
    win0_11.index t (0 : Fin 4) = t.val ∧ win0_11.index t (1 : Fin 4) = 0 ∧ win0_11.index t (2 : Fin 4) = 0
      ∧ win0_11.index t (3 : Fin 4) = 0 :=
  (by decide +kernel : ∀ t : Fin grid0.N, _)

theorem idxCn : ∀ t : Fin cfg0.N,
    win0_12.index t (0 : Fin 4) = t.val ∧ win0_12.index t (1 : Fin 4) = 0 ∧ win0_12.index t (2 : Fin 4) = 0
      ∧ win0_12.index t (3 : Fin 4) = 0 :=
  (by decide +kernel : ∀ t : Fin grid0.N, _)

theorem idxW : ∀ t : Fin cfg0.N,
    (win0_3.index t (0 : Fin 2) = 0 ∧ win0_3.index t (1 : Fin 2) = 0)
      ∧ (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = 0 ∧ win0_6.index t (1 : Fin 2) = 0)
      ∧ (win0_7.index t (0 : Fin 2) = 0 ∧ win0_7.index t (1 : Fin 2) = 0)
      ∧ (win0_8.index t (0 : Fin 2) = 0 ∧ win0_8.index t (1 : Fin 2) = 0)
      ∧ (win0_9.index t (0 : Fin 2) = 0 ∧ win0_9.index t (1 : Fin 2) = 0)
      ∧ (win0_10.index t (0 : Fin 2) = 0 ∧ win0_10.index t (1 : Fin 2) = 0) :=
  (by decide +kernel : ∀ t : Fin grid0.N, _)

/-! ## Each input block at coordinates -/

variable (c : Dev nD) (t : Fin cfg0.N)

/-- The staged input traces: pedestrian pp of the point, batch element b, coordinate k. -/
theorem iblk0_apply (pp : Fin 2) (b : Fin 256) (k : Fin 2) :
    iblk m c 0 t (ix3 pp b k) = (argsOf m c).x (ix3 b (pedOf (pointIx t) pp) k) := by
  obtain ⟨e0, e1, e2⟩ := idxX t
  unfold iblk
  show V m c main_v0 (((cfg0.win 0).blk t).view.emb (ix3 pp b k)) = _
  rw [V_v0]
  refine transpose_apply [1, 0, 2] _ _ _ (ix3 b (pedOf (pointIx t) pp) k) fun a => ?_
  match a with
  | ⟨0, _⟩ => show 2 * t.val + pp.val = win0_0.index t (0 : Fin 3) * 2 + 1 * pp.val; omega
  | ⟨1, _⟩ => show b.val = win0_0.index t (1 : Fin 3) * 256 + 1 * b.val; omega
  | ⟨2, _⟩ => show k.val = win0_0.index t (2 : Fin 3) * 2 + 1 * k.val; omega

/-- The staged old hidden states. -/
theorem iblk1_apply (pp : Fin 2) (l : Fin 2) (b : Fin 256) (k : Fin 512) :
    iblk m c 1 t (ix4 pp l b k) = (argsOf m c).h (ix4 (pedOf (pointIx t) pp) l b k) := by
  obtain ⟨e0, e1, e2, e3⟩ := idxH t
  unfold iblk
  show V m c main_arg1 (((cfg0.win 1).blk t).view.emb (ix4 pp l b k)) = _
  rw [V_main_arg1]
  refine congrArg (m ((c : Thread nD τ).loc main_arg1)) (funext fun a => Fin.ext ?_)
  match a with
  | ⟨0, _⟩ => show win0_1.index t (0 : Fin 4) * 2 + 1 * pp.val = 2 * t.val + pp.val; omega
  | ⟨1, _⟩ => show win0_1.index t (1 : Fin 4) * 2 + 1 * l.val = l.val; omega
  | ⟨2, _⟩ => show win0_1.index t (2 : Fin 4) * 256 + 1 * b.val = b.val; omega
  | ⟨3, _⟩ => show win0_1.index t (3 : Fin 4) * 512 + 1 * k.val = k.val; omega

/-- The staged old cell states. -/
theorem iblk2_apply (pp : Fin 2) (l : Fin 2) (b : Fin 256) (k : Fin 512) :
    iblk m c 2 t (ix4 pp l b k) = (argsOf m c).c (ix4 (pedOf (pointIx t) pp) l b k) := by
  obtain ⟨e0, e1, e2, e3⟩ := idxC t
  unfold iblk
  show V m c main_arg2 (((cfg0.win 2).blk t).view.emb (ix4 pp l b k)) = _
  rw [V_main_arg2]
  refine congrArg (m ((c : Thread nD τ).loc main_arg2)) (funext fun a => Fin.ext ?_)
  match a with
  | ⟨0, _⟩ => show win0_2.index t (0 : Fin 4) * 2 + 1 * pp.val = 2 * t.val + pp.val; omega
  | ⟨1, _⟩ => show win0_2.index t (1 : Fin 4) * 2 + 1 * l.val = l.val; omega
  | ⟨2, _⟩ => show win0_2.index t (2 : Fin 4) * 256 + 1 * b.val = b.val; omega
  | ⟨3, _⟩ => show win0_2.index t (3 : Fin 4) * 512 + 1 * k.val = k.val; omega

/-- Window 3: a weight matrix, transposed by the host, staged whole. -/
theorem iblk3_apply (k : Fin 2) (n : Fin 2048) : iblk m c 3 t (ix2 k n) = (argsOf m c).wi0 (ix2 n k) := by
  obtain ⟨w3, w4, w5, w6, w7, w8, w9, w10⟩ := idxW t
  have e0 := w3.1
  have e1 := w3.2
  unfold iblk
  show V m c main_v1 (((cfg0.win 3).blk t).view.emb (ix2 k n)) = _
  rw [V_v1]
  refine transpose_apply [1, 0] _ _ _ (ix2 n k) fun a => ?_
  match a with
  | ⟨0, _⟩ => show k.val = win0_3.index t (0 : Fin 2) * 2 + 1 * k.val; omega
  | ⟨1, _⟩ => show n.val = win0_3.index t (1 : Fin 2) * 2048 + 1 * n.val; omega

/-- Window 4: a weight matrix, transposed by the host, staged whole. -/
theorem iblk4_apply (k : Fin 512) (n : Fin 2048) : iblk m c 4 t (ix2 k n) = (argsOf m c).wh0 (ix2 n k) := by
  obtain ⟨w3, w4, w5, w6, w7, w8, w9, w10⟩ := idxW t
  have e0 := w4.1
  have e1 := w4.2
  unfold iblk
  show V m c main_v2 (((cfg0.win 4).blk t).view.emb (ix2 k n)) = _
  rw [V_v2]
  refine transpose_apply [1, 0] _ _ _ (ix2 n k) fun a => ?_
  match a with
  | ⟨0, _⟩ => show k.val = win0_4.index t (0 : Fin 2) * 512 + 1 * k.val; omega
  | ⟨1, _⟩ => show n.val = win0_4.index t (1 : Fin 2) * 2048 + 1 * n.val; omega

/-- Window 5: a bias, reshaped to one row by the host, staged whole. -/
theorem iblk5_apply (n : Fin 2048) : iblk m c 5 t (ix2 (0 : Fin 1) n) = (argsOf m c).bi0 (ix1 n) := by
  obtain ⟨w3, w4, w5, w6, w7, w8, w9, w10⟩ := idxW t
  have e0 := w5.1
  have e1 := w5.2
  unfold iblk
  show V m c main_v5 (((cfg0.win 5).blk t).view.emb (ix2 (0 : Fin 1) n)) = _
  have he : ((cfg0.win 5).blk t).view.emb (ix2 (0 : Fin 1) n) = ix2 (0 : Fin 1) n := funext fun a => Fin.ext (by
    match a with
    | ⟨0, _⟩ => show win0_5.index t (0 : Fin 2) * 1 + 1 * 0 = 0; omega
    | ⟨1, _⟩ => show win0_5.index t (1 : Fin 2) * 2048 + 1 * n.val = n.val; omega)
  rw [he, V_v5]
  exact shapeCast_a_1a_apply _ _ 0 n

/-- Window 6: a bias, reshaped to one row by the host, staged whole. -/
theorem iblk6_apply (n : Fin 2048) : iblk m c 6 t (ix2 (0 : Fin 1) n) = (argsOf m c).bh0 (ix1 n) := by
  obtain ⟨w3, w4, w5, w6, w7, w8, w9, w10⟩ := idxW t
  have e0 := w6.1
  have e1 := w6.2
  unfold iblk
  show V m c main_v6 (((cfg0.win 6).blk t).view.emb (ix2 (0 : Fin 1) n)) = _
  have he : ((cfg0.win 6).blk t).view.emb (ix2 (0 : Fin 1) n) = ix2 (0 : Fin 1) n := funext fun a => Fin.ext (by
    match a with
    | ⟨0, _⟩ => show win0_6.index t (0 : Fin 2) * 1 + 1 * 0 = 0; omega
    | ⟨1, _⟩ => show win0_6.index t (1 : Fin 2) * 2048 + 1 * n.val = n.val; omega)
  rw [he, V_v6]
  exact shapeCast_a_1a_apply _ _ 0 n

/-- Window 7: a weight matrix, transposed by the host, staged whole. -/
theorem iblk7_apply (k : Fin 512) (n : Fin 2048) : iblk m c 7 t (ix2 k n) = (argsOf m c).wi1 (ix2 n k) := by
  obtain ⟨w3, w4, w5, w6, w7, w8, w9, w10⟩ := idxW t
  have e0 := w7.1
  have e1 := w7.2
  unfold iblk
  show V m c main_v3 (((cfg0.win 7).blk t).view.emb (ix2 k n)) = _
  rw [V_v3]
  refine transpose_apply [1, 0] _ _ _ (ix2 n k) fun a => ?_
  match a with
  | ⟨0, _⟩ => show k.val = win0_7.index t (0 : Fin 2) * 512 + 1 * k.val; omega
  | ⟨1, _⟩ => show n.val = win0_7.index t (1 : Fin 2) * 2048 + 1 * n.val; omega

/-- Window 8: a weight matrix, transposed by the host, staged whole. -/
theorem iblk8_apply (k : Fin 512) (n : Fin 2048) : iblk m c 8 t (ix2 k n) = (argsOf m c).wh1 (ix2 n k) := by
  obtain ⟨w3, w4, w5, w6, w7, w8, w9, w10⟩ := idxW t
  have e0 := w8.1
  have e1 := w8.2
  unfold iblk
  show V m c main_v4 (((cfg0.win 8).blk t).view.emb (ix2 k n)) = _
  rw [V_v4]
  refine transpose_apply [1, 0] _ _ _ (ix2 n k) fun a => ?_
  match a with
  | ⟨0, _⟩ => show k.val = win0_8.index t (0 : Fin 2) * 512 + 1 * k.val; omega
  | ⟨1, _⟩ => show n.val = win0_8.index t (1 : Fin 2) * 2048 + 1 * n.val; omega

/-- Window 9: a bias, reshaped to one row by the host, staged whole. -/
theorem iblk9_apply (n : Fin 2048) : iblk m c 9 t (ix2 (0 : Fin 1) n) = (argsOf m c).bi1 (ix1 n) := by
  obtain ⟨w3, w4, w5, w6, w7, w8, w9, w10⟩ := idxW t
  have e0 := w9.1
  have e1 := w9.2
  unfold iblk
  show V m c main_v7 (((cfg0.win 9).blk t).view.emb (ix2 (0 : Fin 1) n)) = _
  have he : ((cfg0.win 9).blk t).view.emb (ix2 (0 : Fin 1) n) = ix2 (0 : Fin 1) n := funext fun a => Fin.ext (by
    match a with
    | ⟨0, _⟩ => show win0_9.index t (0 : Fin 2) * 1 + 1 * 0 = 0; omega
    | ⟨1, _⟩ => show win0_9.index t (1 : Fin 2) * 2048 + 1 * n.val = n.val; omega)
  rw [he, V_v7]
  exact shapeCast_a_1a_apply _ _ 0 n

/-- Window 10: a bias, reshaped to one row by the host, staged whole. -/
theorem iblk10_apply (n : Fin 2048) : iblk m c 10 t (ix2 (0 : Fin 1) n) = (argsOf m c).bh1 (ix1 n) := by
  obtain ⟨w3, w4, w5, w6, w7, w8, w9, w10⟩ := idxW t
  have e0 := w10.1
  have e1 := w10.2
  unfold iblk
  show V m c main_v8 (((cfg0.win 10).blk t).view.emb (ix2 (0 : Fin 1) n)) = _
  have he : ((cfg0.win 10).blk t).view.emb (ix2 (0 : Fin 1) n) = ix2 (0 : Fin 1) n := funext fun a => Fin.ext (by
    match a with
    | ⟨0, _⟩ => show win0_10.index t (0 : Fin 2) * 1 + 1 * 0 = 0; omega
    | ⟨1, _⟩ => show win0_10.index t (1 : Fin 2) * 2048 + 1 * n.val = n.val; omega)
  rw [he, V_v8]
  exact shapeCast_a_1a_apply _ _ 0 n

/-! ## The tile's row and weights are the arguments' -/

/-- The weights every point stages are the arguments' weights. -/
theorem tile_weights :
    tileWeights (iblk m c 3 t) (iblk m c 4 t) (iblk m c 5 t) (iblk m c 6 t) (iblk m c 7 t) (iblk m c 8 t) (iblk m c 9 t)
      (iblk m c 10 t) = weightsOf (argsOf m c) := by
  unfold tileWeights weightsOf
  simp only [Weights.mk.injEq]
  exact ⟨funext fun n => funext fun k => iblk3_apply m c t k n, funext fun n => funext fun k => iblk4_apply m c t k n,
    funext fun n => iblk5_apply m c t n, funext fun n => iblk6_apply m c t n,
    funext fun n => funext fun k => iblk7_apply m c t k n, funext fun n => funext fun k => iblk8_apply m c t k n,
    funext fun n => iblk9_apply m c t n, funext fun n => iblk10_apply m c t n⟩

/-- Row (pp, b) staged at point t is row (2t + pp, b) of the arguments. -/
theorem tile_row (pp : Fin 2) (b : Fin 256) :
    tileRow (iblk m c 0 t) (iblk m c 1 t) (iblk m c 2 t) pp b = rowOf (argsOf m c) (pedOf (pointIx t) pp) b := by
  unfold tileRow rowOf
  simp only [Row.mk.injEq]
  exact ⟨funext fun k => iblk0_apply m c t pp b k, funext fun k => iblk1_apply m c t pp 0 b k,
    funext fun k => iblk2_apply m c t pp 0 b k, funext fun k => iblk1_apply m c t pp 1 b k,
    funext fun k => iblk2_apply m c t pp 1 b k⟩

end Cert.Lstm.Kern

end
-- ==== Proof.KernRun.lean ====
/-
  The kernel's run, read: its three results as the whole-array functions of the arguments.

  Each of the 32 grid points writes back its block of the two state arrays; the block is the tile's block function,
  which is the whole-array result restricted to pedestrians 2t and 2t + 1; the blocks cover the arrays. After the
  region the host cuts the hidden-state array at layer 1, drops the unit axis and swaps pedestrian and batch: that is
  layer 1's new hidden state as [batch, pedestrian, 512], the output.
-/
import proofs.«101591_j15547781612107_2_alg».proof.Proof.KernBlocks

set_option maxRecDepth 16384

noncomputable section

namespace Cert.Lstm

open Idealize.ShloMosaic Idealize.ShloMosaic.ValueIdx

/-- The hidden-state result cut at layer 1, the unit axis dropped, pedestrian and batch swapped, is the output. -/
theorem out_of_hn (a : Args)
    (hs : (⟨4, ![64, 2, 256, 512]⟩ : Shape).Slices ![0, 1, 0, 0] ⟨4, ![64, 1, 256, 512]⟩)
    (hc : (⟨4, ![64, 1, 256, 512]⟩ : Shape).ShapeCasts ⟨3, ![64, 256, 512]⟩)
    (ht : (⟨3, ![64, 256, 512]⟩ : Shape).Transposes [1, 0, 2] ⟨3, ![256, 64, 512]⟩) :
    transpose ⟨3, ![256, 64, 512]⟩ [1, 0, 2]
      (shapeCast ⟨3, ![64, 256, 512]⟩ (extractStridedSlice ⟨4, ![64, 1, 256, 512]⟩ ![0, 1, 0, 0] (specHn a) hs) hc) ht
      = specOut a := by
  funext i
  obtain ⟨b, p, j, rfl⟩ : ∃ (b : Fin 256) (p : Fin 64) (j : Fin 512), i = ix3 b p j := ⟨i 0, i 1, i 2, eq_ix3 i⟩
  refine (transpose_apply [1, 0, 2] _ ht _ (ix3 p b j) fun ax => ?_).trans ?_
  · match ax with
    | ⟨0, _⟩ => rfl
    | ⟨1, _⟩ => rfl
    | ⟨2, _⟩ => rfl
  refine (shapeCast_apply _ hc _ (ix4 p (0 : Fin 1) b j) ?_).trans ?_
  · rw [Shape.rowMajor_val_four, Shape.rowMajor_val_three]
    show ((p.val * 1 + 0) * 256 + b.val) * 512 + j.val = (p.val * 256 + b.val) * 512 + j.val
    omega
  refine (extractStridedSlice_apply _ (specHn a) hs _ (ix4 p (1 : Fin 2) b j) fun ax => ?_).trans ?_
  · match ax with
    | ⟨0, _⟩ => show p.val = 0 + p.val; omega
    | ⟨1, _⟩ => show 1 = 1 + 0; omega
    | ⟨2, _⟩ => show b.val = 0 + b.val; omega
    | ⟨3, _⟩ => show j.val = 0 + j.val; omega
  show (if ((ix4 p (1 : Fin 2) b j) 1).val = 0 then _ else _) = _
  rw [if_neg (show ¬((ix4 p (1 : Fin 2) b j) 1).val = 0 from Nat.one_ne_zero)]
  rfl

end Cert.Lstm

namespace Cert.Lstm.Kern

open Cert.Lstm Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- What grid point t writes back to the Hn array is block t of the whole-array result. -/
theorem flushedHn (c : Dev nD) (t : Fin cfg0.N) :
    (dats m 0 c).flushed 11 t = ((cfg0.win 11).blk t).view.read (Elt Ideal) (specHn (argsOf m c)) := by
  obtain ⟨e0, e1, e2, e3⟩ := idxHn t
  show (cfg0.win 11).cut (grid0.coords t) ((dats m 0 c).after 11 t) = _
  rw [after0_11, out0_11_eq (iblk m c 0 t) (iblk m c 1 t) (iblk m c 2 t) (iblk m c 3 t) (iblk m c 4 t) (iblk m c 5 t) (iblk m c 6 t) (iblk m c 7 t) (iblk m c 8 t) (iblk m c 9 t) (iblk m c 10 t)]
  funext y
  show tileHn (iblk m c 0 t) (iblk m c 1 t) (iblk m c 2 t) (iblk m c 3 t) (iblk m c 4 t) (iblk m c 5 t) (iblk m c 6 t) (iblk m c 7 t) (iblk m c 8 t) (iblk m c 9 t) (iblk m c 10 t) y = specHn (argsOf m c) (((cfg0.win 11).blk t).view.emb y)
  refine tileHn_spec (argsOf m c) (pointIx t) (iblk m c 0 t) (iblk m c 1 t) (iblk m c 2 t) (iblk m c 3 t) (iblk m c 4 t) (iblk m c 5 t) (iblk m c 6 t) (iblk m c 7 t) (iblk m c 8 t) (iblk m c 9 t) (iblk m c 10 t) (tile_weights m c t) (fun pp b => tile_row m c t pp b) y _ ?_ ?_ ?_ ?_
  · show win0_11.index t (0 : Fin 4) * 2 + 1 * (y 0).val = 2 * t.val + (y 0).val; omega
  · show win0_11.index t (1 : Fin 4) * 2 + 1 * (y 1).val = (y 1).val; omega
  · show win0_11.index t (2 : Fin 4) * 256 + 1 * (y 2).val = (y 2).val; omega
  · show win0_11.index t (3 : Fin 4) * 512 + 1 * (y 3).val = (y 3).val; omega

/-- An index of the Hn array is in point t's block iff each coordinate is in the block's range on its axis. -/
theorem mem_blkHn (t : Fin cfg0.N) (i : S64x2x256x512.Idx) :
    i ∈ ((cfg0.win 11).blk t).view.set ↔ ∀ a : Fin 4, win0_11.index t a * S2x2x256x512.size a ≤ (i a).val
      ∧ (i a).val < win0_11.index t a * S2x2x256x512.size a + S2x2x256x512.size a := by
  show i ∈ ((View.whole main_v9_0).slice (win0_11.rect t)).set ↔ _
  rw [View.set_slice_whole, Rect.mem_set_unit]
  exact Iff.rfl

/-- Pedestrian i 0 is staged by point (i 0) / 2, so the 32 blocks cover the Hn array. -/
theorem coverHn (i : S64x2x256x512.Idx) :
    ∃ t : Fin cfg0.N, (cfg0.win 11).flush t = true ∧ i ∈ ((cfg0.win 11).blk t).view.set := by
  have hi0 : (i 0).val < 64 := (i 0).isLt
  have hi1 : (i 1).val < 2 := (i 1).isLt
  have hi2 : (i 2).val < 256 := (i 2).isLt
  have hi3 : (i 3).val < 512 := (i 3).isLt
  have hN : cfg0.N = 32 := N_0
  obtain ⟨t, ht⟩ : ∃ t : Fin cfg0.N, t.val = (i 0).val / 2 := ⟨⟨(i 0).val / 2, by rw [hN]; omega⟩, rfl⟩
  obtain ⟨e0, e1, e2, e3⟩ := idxHn t
  refine ⟨t, flush0_11 t, ?_⟩
  rw [mem_blkHn]
  intro a
  match a with
  | ⟨0, _⟩ => show win0_11.index t (0 : Fin 4) * 2 ≤ (i 0).val ∧ (i 0).val < win0_11.index t (0 : Fin 4) * 2 + 2; omega
  | ⟨1, _⟩ => show win0_11.index t (1 : Fin 4) * 2 ≤ (i 1).val ∧ (i 1).val < win0_11.index t (1 : Fin 4) * 2 + 2; omega
  | ⟨2, _⟩ => show win0_11.index t (2 : Fin 4) * 256 ≤ (i 2).val ∧ (i 2).val < win0_11.index t (2 : Fin 4) * 256 + 256; omega
  | ⟨3, _⟩ => show win0_11.index t (3 : Fin 4) * 512 ≤ (i 3).val ∧ (i 3).val < win0_11.index t (3 : Fin 4) * 512 + 512; omega

/-- After the run the Hn array holds the whole-array result. -/
theorem finalHn (c : Dev nD) : (dats m 0 c).arrAt 11 cfg0.N = specHn (argsOf m c) :=
  (dats m 0 c).arrAt_eq_of_cover 11 (specHn (argsOf m c)) (fun t _ => flushedHn m c t) coverHn

/-- What grid point t writes back to the Cn array is block t of the whole-array result. -/
theorem flushedCn (c : Dev nD) (t : Fin cfg0.N) :
    (dats m 0 c).flushed 12 t = ((cfg0.win 12).blk t).view.read (Elt Ideal) (specCn (argsOf m c)) := by
  obtain ⟨e0, e1, e2, e3⟩ := idxCn t
  show (cfg0.win 12).cut (grid0.coords t) ((dats m 0 c).after 12 t) = _
  rw [after0_12, out0_12_eq (iblk m c 0 t) (iblk m c 1 t) (iblk m c 2 t) (iblk m c 3 t) (iblk m c 4 t) (iblk m c 5 t) (iblk m c 6 t) (iblk m c 7 t) (iblk m c 8 t) (iblk m c 9 t) (iblk m c 10 t)]
  funext y
  show tileCn (iblk m c 0 t) (iblk m c 1 t) (iblk m c 2 t) (iblk m c 3 t) (iblk m c 4 t) (iblk m c 5 t) (iblk m c 6 t) (iblk m c 7 t) (iblk m c 8 t) (iblk m c 9 t) (iblk m c 10 t) y = specCn (argsOf m c) (((cfg0.win 12).blk t).view.emb y)
  refine tileCn_spec (argsOf m c) (pointIx t) (iblk m c 0 t) (iblk m c 1 t) (iblk m c 2 t) (iblk m c 3 t) (iblk m c 4 t) (iblk m c 5 t) (iblk m c 6 t) (iblk m c 7 t) (iblk m c 8 t) (iblk m c 9 t) (iblk m c 10 t) (tile_weights m c t) (fun pp b => tile_row m c t pp b) y _ ?_ ?_ ?_ ?_
  · show win0_12.index t (0 : Fin 4) * 2 + 1 * (y 0).val = 2 * t.val + (y 0).val; omega
  · show win0_12.index t (1 : Fin 4) * 2 + 1 * (y 1).val = (y 1).val; omega
  · show win0_12.index t (2 : Fin 4) * 256 + 1 * (y 2).val = (y 2).val; omega
  · show win0_12.index t (3 : Fin 4) * 512 + 1 * (y 3).val = (y 3).val; omega

/-- An index of the Cn array is in point t's block iff each coordinate is in the block's range on its axis. -/
theorem mem_blkCn (t : Fin cfg0.N) (i : S64x2x256x512.Idx) :
    i ∈ ((cfg0.win 12).blk t).view.set ↔ ∀ a : Fin 4, win0_12.index t a * S2x2x256x512.size a ≤ (i a).val
      ∧ (i a).val < win0_12.index t a * S2x2x256x512.size a + S2x2x256x512.size a := by
  show i ∈ ((View.whole main_v9_1).slice (win0_12.rect t)).set ↔ _
  rw [View.set_slice_whole, Rect.mem_set_unit]
  exact Iff.rfl

/-- Pedestrian i 0 is staged by point (i 0) / 2, so the 32 blocks cover the Cn array. -/
theorem coverCn (i : S64x2x256x512.Idx) :
    ∃ t : Fin cfg0.N, (cfg0.win 12).flush t = true ∧ i ∈ ((cfg0.win 12).blk t).view.set := by
  have hi0 : (i 0).val < 64 := (i 0).isLt
  have hi1 : (i 1).val < 2 := (i 1).isLt
  have hi2 : (i 2).val < 256 := (i 2).isLt
  have hi3 : (i 3).val < 512 := (i 3).isLt
  have hN : cfg0.N = 32 := N_0
  obtain ⟨t, ht⟩ : ∃ t : Fin cfg0.N, t.val = (i 0).val / 2 := ⟨⟨(i 0).val / 2, by rw [hN]; omega⟩, rfl⟩
  obtain ⟨e0, e1, e2, e3⟩ := idxCn t
  refine ⟨t, flush0_12 t, ?_⟩
  rw [mem_blkCn]
  intro a
  match a with
  | ⟨0, _⟩ => show win0_12.index t (0 : Fin 4) * 2 ≤ (i 0).val ∧ (i 0).val < win0_12.index t (0 : Fin 4) * 2 + 2; omega
  | ⟨1, _⟩ => show win0_12.index t (1 : Fin 4) * 2 ≤ (i 1).val ∧ (i 1).val < win0_12.index t (1 : Fin 4) * 2 + 2; omega
  | ⟨2, _⟩ => show win0_12.index t (2 : Fin 4) * 256 ≤ (i 2).val ∧ (i 2).val < win0_12.index t (2 : Fin 4) * 256 + 256; omega
  | ⟨3, _⟩ => show win0_12.index t (3 : Fin 4) * 512 ≤ (i 3).val ∧ (i 3).val < win0_12.index t (3 : Fin 4) * 512 + 512; omega

/-- After the run the Cn array holds the whole-array result. -/
theorem finalCn (c : Dev nD) : (dats m 0 c).arrAt 12 cfg0.N = specCn (argsOf m c) :=
  (dats m 0 c).arrAt_eq_of_cover 12 (specCn (argsOf m c)) (fun t _ => flushedCn m c t) coverCn

/-- The host lines after the region leave the output at the whole-array result. -/
theorem tail_out (c : Dev nD) :
    Pipeline.afterTail₀ cfgs (dats m) 0 (V0 m) [hostOps1] c main_v12 = specOut (argsOf m c) := by
  unfold Pipeline.afterTail₀
  show StableHlo.after hostOps1 _ (Proc.devRef .tc main_v12) = _
  after_results
  rw [(Pipeline.withArrays_arr spec0 launch0.win.arr_inj c _ _ 11).trans (finalHn m c)]
  exact out_of_hn (argsOf m c) _ _ _

/-- THE RUN: every weakly fair execution of the kernel's program terminates with the output, the new hidden states
    and the new cell states at the whole-array results of the arguments, and the arguments unchanged. -/
theorem run : θ_run defs (onTc (τ := τ) (main (F := Ideal))) ⟨m, fun _ => 0, ρ⟩ fun r => ∀ c : Dev nD,
      r.2.mem ((c : Thread nD τ).loc main_v12) = specOut (argsOf m c)
      ∧ r.2.mem ((c : Thread nD τ).loc main_v9_0) = specHn (argsOf m c)
      ∧ r.2.mem ((c : Thread nD τ).loc main_v9_1) = specCn (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨
      ((h c).2 main_v12 (Pipeline.mem_restRefs_of main_v12 (by decide) (by decide))).trans (tail_out m c),
      ((h c).1 11).trans (finalHn m c),
      ((h c).1 12).trans (finalCn m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.Lstm.Kern

end
-- ==== Proof.RefRows.lean ====
/-
  The rows of the flattened batch, and the argument arrays as the reference's flattened operands.

  The reference lays pedestrian p's batch element b at row r = p * 256 + b of 16384 rows. Read at row r, the
  transposed and reshaped input traces are the traces at (b, p), and layer l's slice of the transposed and reshaped
  states is the states at (p, l, b); a transposed weight matrix at (k, n) is the matrix at (n, k), and a bias laid
  along the rows is the bias at its column. All of it is arithmetic of quotients and remainders by literals.
-/
import proofs.«101591_j15547781612107_2_alg».proof.Proof.LstmSpec
import proofs.«101591_j15547781612107_2_alg».proof.Proof.Gen.ReferenceIdeal.Read

noncomputable section

namespace Cert.Lstm.Ref

open Cert.ReferenceIdeal Cert.ReferenceIdeal.Read Idealize.ShloMosaic Idealize.ShloMosaic.ValueIdx

/-- The word of the float 1.0 denotes 1. -/
theorem ofBits_one : Ideal.ofBits .f32 0x3F800000#32 = 1 := by
  simp [Ideal.ofBits, Ideal.ieee, -EReal.coe_mul]; norm_num

/-- The pedestrian of a row. -/
def rowP (r : Fin 16384) : Fin 64 := ⟨r.val / 256, by have := r.isLt; omega⟩
/-- The batch element of a row. -/
def rowB (r : Fin 16384) : Fin 256 := ⟨r.val % 256, by omega⟩
/-- The row of pedestrian p's batch element b. -/
def rowAt (p : Fin 64) (b : Fin 256) : Fin 16384 := ⟨p.val * 256 + b.val, by have := p.isLt; have := b.isLt; omega⟩

theorem rowP_rowAt (p : Fin 64) (b : Fin 256) : rowP (rowAt p b) = p :=
  Fin.ext (by have := b.isLt; show (p.val * 256 + b.val) / 256 = p.val; omega)
theorem rowB_rowAt (p : Fin 64) (b : Fin 256) : rowB (rowAt p b) = b :=
  Fin.ext (by have := b.isLt; show (p.val * 256 + b.val) % 256 = b.val; omega)

/-! ## The input traces -/

theorem idx_v1 (r : Fin 16384) (k : Fin 2) :
    idx_main_v1 (ix2 r k) = (ix3 (rowP r) (rowB r) k : S64x256x2.Idx) := by
  have hr := r.isLt; have hk := k.isLt
  funext a
  match a with
  | ⟨0, _⟩ => exact Fin.ext (by show (r.val * 2 + k.val) / 512 = r.val / 256; omega)
  | ⟨1, _⟩ => exact Fin.ext (by show (r.val * 2 + k.val) / 2 % 256 = r.val % 256; omega)
  | ⟨2, _⟩ => exact Fin.ext (by show (r.val * 2 + k.val) % 2 = k.val; omega)

theorem idx_v0 (p : Fin 64) (b : Fin 256) (k : Fin 2) :
    idx_main_v0 (ix3 p b k : S64x256x2.Idx) = (ix3 b p k : S256x64x2.Idx) := by
  funext a
  match a with
  | ⟨0, _⟩ => rfl
  | ⟨1, _⟩ => rfl
  | ⟨2, _⟩ => rfl

/-- The flattened input traces at row r are the traces of the row's batch element and pedestrian. -/
theorem v1_at (x0 : (⟨S256x64x2, .f32⟩ : BufTy).Contents (Elt Ideal)) (r : Fin 16384) (k : Fin 2) :
    val_main_v1 (F := Ideal) x0 (ix2 r k) = x0 (ix3 (rowB r) (rowP r) k) := by
  rw [val_main_v1_apply, idx_v1, val_main_v0_apply, idx_v0]

/-! ## The old states -/

theorem idx_v3 (l : Fin 2) (r : Fin 16384) (k : Fin 512) :
    idx_main_v3 (ix3 l r k : S2x16384x512.Idx) = (ix4 l (rowP r) (rowB r) k : S2x64x256x512.Idx) := by
  have hl := l.isLt; have hr := r.isLt; have hk := k.isLt
  funext a
  match a with
  | ⟨0, _⟩ => exact Fin.ext (by show ((l.val * 16384 + r.val) * 512 + k.val) / 8388608 = l.val; omega)
  | ⟨1, _⟩ => exact Fin.ext (by show ((l.val * 16384 + r.val) * 512 + k.val) / 131072 % 64 = r.val / 256; omega)
  | ⟨2, _⟩ => exact Fin.ext (by show ((l.val * 16384 + r.val) * 512 + k.val) / 512 % 256 = r.val % 256; omega)
  | ⟨3, _⟩ => exact Fin.ext (by show ((l.val * 16384 + r.val) * 512 + k.val) % 512 = k.val; omega)

theorem idx_v2 (l : Fin 2) (p : Fin 64) (b : Fin 256) (k : Fin 512) :
    idx_main_v2 (ix4 l p b k : S2x64x256x512.Idx) = (ix4 p l b k : S64x2x256x512.Idx) := by
  funext a
  match a with
  | ⟨0, _⟩ => rfl
  | ⟨1, _⟩ => rfl
  | ⟨2, _⟩ => rfl
  | ⟨3, _⟩ => rfl

theorem idx_v5 (l : Fin 2) (r : Fin 16384) (k : Fin 512) :
    idx_main_v5 (ix3 l r k : S2x16384x512.Idx) = (ix4 l (rowP r) (rowB r) k : S2x64x256x512.Idx) := by
  have hl := l.isLt; have hr := r.isLt; have hk := k.isLt
  funext a
  match a with
  | ⟨0, _⟩ => exact Fin.ext (by show ((l.val * 16384 + r.val) * 512 + k.val) / 8388608 = l.val; omega)
  | ⟨1, _⟩ => exact Fin.ext (by show ((l.val * 16384 + r.val) * 512 + k.val) / 131072 % 64 = r.val / 256; omega)
  | ⟨2, _⟩ => exact Fin.ext (by show ((l.val * 16384 + r.val) * 512 + k.val) / 512 % 256 = r.val % 256; omega)
  | ⟨3, _⟩ => exact Fin.ext (by show ((l.val * 16384 + r.val) * 512 + k.val) % 512 = k.val; omega)

theorem idx_v4 (l : Fin 2) (p : Fin 64) (b : Fin 256) (k : Fin 512) :
    idx_main_v4 (ix4 l p b k : S2x64x256x512.Idx) = (ix4 p l b k : S64x2x256x512.Idx) := by
  funext a
  match a with
  | ⟨0, _⟩ => rfl
  | ⟨1, _⟩ => rfl
  | ⟨2, _⟩ => rfl
  | ⟨3, _⟩ => rfl

theorem idx_v12 (r : Fin 16384) (k : Fin 512) :
    idx_main_v12 (ix2 r k) = (ix3 (0 : Fin 1) r k : S1x16384x512.Idx) := by
  have hr := r.isLt; have hk := k.isLt
  funext a
  match a with
  | ⟨0, _⟩ => rfl
  | ⟨1, _⟩ => exact Fin.ext (by show (r.val * 512 + k.val) / 512 % 16384 = r.val; omega)
  | ⟨2, _⟩ => exact Fin.ext (by show (r.val * 512 + k.val) % 512 = k.val; omega)

theorem idx_v11 (r : Fin 16384) (k : Fin 512) :
    idx_main_v11 (ix3 (0 : Fin 1) r k : S1x16384x512.Idx) = (ix3 (0 : Fin 2) r k : S2x16384x512.Idx) := by
  funext a
  match a with
  | ⟨0, _⟩ => rfl
  | ⟨1, _⟩ => rfl
  | ⟨2, _⟩ => rfl

/-- Layer 0's flattened old hidden state at row r is the state of the row's pedestrian and batch element. -/
theorem v12_at (x1 : (⟨S64x2x256x512, .f32⟩ : BufTy).Contents (Elt Ideal)) (r : Fin 16384) (k : Fin 512) :
    val_main_v12 (F := Ideal) x1 (ix2 r k) = x1 (ix4 (rowP r) 0 (rowB r) k) := by
  rw [val_main_v12_apply, idx_v12, val_main_v11_apply, idx_v11, val_main_v3_apply, idx_v3,
    val_main_v2_apply, idx_v2]

theorem idx_v43 (r : Fin 16384) (k : Fin 512) :
    idx_main_v43 (ix2 r k) = (ix3 (0 : Fin 1) r k : S1x16384x512.Idx) := by
  have hr := r.isLt; have hk := k.isLt
  funext a
  match a with
  | ⟨0, _⟩ => rfl
  | ⟨1, _⟩ => exact Fin.ext (by show (r.val * 512 + k.val) / 512 % 16384 = r.val; omega)
  | ⟨2, _⟩ => exact Fin.ext (by show (r.val * 512 + k.val) % 512 = k.val; omega)

theorem idx_v42 (r : Fin 16384) (k : Fin 512) :
    idx_main_v42 (ix3 (0 : Fin 1) r k : S1x16384x512.Idx) = (ix3 (0 : Fin 2) r k : S2x16384x512.Idx) := by
  funext a
  match a with
  | ⟨0, _⟩ => rfl
  | ⟨1, _⟩ => rfl
  | ⟨2, _⟩ => rfl

/-- Layer 0's flattened old cell state at row r is the state of the row's pedestrian and batch element. -/
theorem v43_at (x2 : (⟨S64x2x256x512, .f32⟩ : BufTy).Contents (Elt Ideal)) (r : Fin 16384) (k : Fin 512) :
    val_main_v43 (F := Ideal) x2 (ix2 r k) = x2 (ix4 (rowP r) 0 (rowB r) k) := by
  rw [val_main_v43_apply, idx_v43, val_main_v42_apply, idx_v42, val_main_v5_apply, idx_v5,
    val_main_v4_apply, idx_v4]

theorem idx_v55 (r : Fin 16384) (k : Fin 512) :
    idx_main_v55 (ix2 r k) = (ix3 (0 : Fin 1) r k : S1x16384x512.Idx) := by
  have hr := r.isLt; have hk := k.isLt
  funext a
  match a with
  | ⟨0, _⟩ => rfl
  | ⟨1, _⟩ => exact Fin.ext (by show (r.val * 512 + k.val) / 512 % 16384 = r.val; omega)
  | ⟨2, _⟩ => exact Fin.ext (by show (r.val * 512 + k.val) % 512 = k.val; omega)

theorem idx_v54 (r : Fin 16384) (k : Fin 512) :
    idx_main_v54 (ix3 (0 : Fin 1) r k : S1x16384x512.Idx) = (ix3 (1 : Fin 2) r k : S2x16384x512.Idx) := by
  funext a
  match a with
  | ⟨0, _⟩ => rfl
  | ⟨1, _⟩ => rfl
  | ⟨2, _⟩ => rfl

/-- Layer 1's flattened old hidden state at row r is the state of the row's pedestrian and batch element. -/
theorem v55_at (x1 : (⟨S64x2x256x512, .f32⟩ : BufTy).Contents (Elt Ideal)) (r : Fin 16384) (k : Fin 512) :
    val_main_v55 (F := Ideal) x1 (ix2 r k) = x1 (ix4 (rowP r) 1 (rowB r) k) := by
  rw [val_main_v55_apply, idx_v55, val_main_v54_apply, idx_v54, val_main_v3_apply, idx_v3,
    val_main_v2_apply, idx_v2]

theorem idx_v86 (r : Fin 16384) (k : Fin 512) :
    idx_main_v86 (ix2 r k) = (ix3 (0 : Fin 1) r k : S1x16384x512.Idx) := by
  have hr := r.isLt; have hk := k.isLt
  funext a
  match a with
  | ⟨0, _⟩ => rfl
  | ⟨1, _⟩ => exact Fin.ext (by show (r.val * 512 + k.val) / 512 % 16384 = r.val; omega)
  | ⟨2, _⟩ => exact Fin.ext (by show (r.val * 512 + k.val) % 512 = k.val; omega)

theorem idx_v85 (r : Fin 16384) (k : Fin 512) :
    idx_main_v85 (ix3 (0 : Fin 1) r k : S1x16384x512.Idx) = (ix3 (1 : Fin 2) r k : S2x16384x512.Idx) := by
  funext a
  match a with
  | ⟨0, _⟩ => rfl
  | ⟨1, _⟩ => rfl
  | ⟨2, _⟩ => rfl

/-- Layer 1's flattened old cell state at row r is the state of the row's pedestrian and batch element. -/
theorem v86_at (x2 : (⟨S64x2x256x512, .f32⟩ : BufTy).Contents (Elt Ideal)) (r : Fin 16384) (k : Fin 512) :
    val_main_v86 (F := Ideal) x2 (ix2 r k) = x2 (ix4 (rowP r) 1 (rowB r) k) := by
  rw [val_main_v86_apply, idx_v86, val_main_v85_apply, idx_v85, val_main_v5_apply, idx_v5,
    val_main_v4_apply, idx_v4]

/-! ## The weights and biases -/

/-- A transposed weight matrix at (input coordinate, gate column). -/
theorem v6_at (x3 : (⟨S2048x2, .f32⟩ : BufTy).Contents (Elt Ideal)) (k : Fin 2) (n : Fin 2048) :
    val_main_v6 (F := Ideal) x3 (ix2 k n) = x3 (ix2 n k) := by
  rw [val_main_v6_apply]
  congr 1
  funext a
  match a with
  | ⟨0, _⟩ => rfl
  | ⟨1, _⟩ => rfl

/-- A transposed weight matrix at (input coordinate, gate column). -/
theorem v13_at (x4 : (⟨S2048x512, .f32⟩ : BufTy).Contents (Elt Ideal)) (k : Fin 512) (n : Fin 2048) :
    val_main_v13 (F := Ideal) x4 (ix2 k n) = x4 (ix2 n k) := by
  rw [val_main_v13_apply]
  congr 1
  funext a
  match a with
  | ⟨0, _⟩ => rfl
  | ⟨1, _⟩ => rfl

/-- A transposed weight matrix at (input coordinate, gate column). -/
theorem v49_at (x7 : (⟨S2048x512, .f32⟩ : BufTy).Contents (Elt Ideal)) (k : Fin 512) (n : Fin 2048) :
    val_main_v49 (F := Ideal) x7 (ix2 k n) = x7 (ix2 n k) := by
  rw [val_main_v49_apply]
  congr 1
  funext a
  match a with
  | ⟨0, _⟩ => rfl
  | ⟨1, _⟩ => rfl

/-- A transposed weight matrix at (input coordinate, gate column). -/
theorem v56_at (x8 : (⟨S2048x512, .f32⟩ : BufTy).Contents (Elt Ideal)) (k : Fin 512) (n : Fin 2048) :
    val_main_v56 (F := Ideal) x8 (ix2 k n) = x8 (ix2 n k) := by
  rw [val_main_v56_apply]
  congr 1
  funext a
  match a with
  | ⟨0, _⟩ => rfl
  | ⟨1, _⟩ => rfl

/-- A bias laid along the rows, at (row, gate column). -/
theorem v9_at (x5 : (⟨S2048, .f32⟩ : BufTy).Contents (Elt Ideal)) (r : Fin 16384) (n : Fin 2048) :
    val_main_v9 (F := Ideal) x5 (ix2 r n) = x5 (ix1 n) := by
  rw [val_main_v9_apply, val_main_v8_apply]
  congr 1
  funext a
  match a with
  | ⟨0, _⟩ => rfl

/-- A bias laid along the rows, at (row, gate column). -/
theorem v17_at (x6 : (⟨S2048, .f32⟩ : BufTy).Contents (Elt Ideal)) (r : Fin 16384) (n : Fin 2048) :
    val_main_v17 (F := Ideal) x6 (ix2 r n) = x6 (ix1 n) := by
  rw [val_main_v17_apply, val_main_v16_apply]
  congr 1
  funext a
  match a with
  | ⟨0, _⟩ => rfl

/-- A bias laid along the rows, at (row, gate column). -/
theorem v52_at (x9 : (⟨S2048, .f32⟩ : BufTy).Contents (Elt Ideal)) (r : Fin 16384) (n : Fin 2048) :
    val_main_v52 (F := Ideal) x9 (ix2 r n) = x9 (ix1 n) := by
  rw [val_main_v52_apply, val_main_v51_apply]
  congr 1
  funext a
  match a with
  | ⟨0, _⟩ => rfl

/-- A bias laid along the rows, at (row, gate column). -/
theorem v60_at (x10 : (⟨S2048, .f32⟩ : BufTy).Contents (Elt Ideal)) (r : Fin 16384) (n : Fin 2048) :
    val_main_v60 (F := Ideal) x10 (ix2 r n) = x10 (ix1 n) := by
  rw [val_main_v60_apply, val_main_v59_apply]
  congr 1
  funext a
  match a with
  | ⟨0, _⟩ => rfl

/-! ## The operand indices of the four products -/

theorem lidx_v7 (r : Fin 16384) (n : Fin 2048) (k : Fin 2) : lidx_main_v7 (ix2 r n) k = ix2 r k := by
  funext a
  match a with
  | ⟨0, _⟩ => rfl
  | ⟨1, _⟩ => rfl

theorem ridx_v7 (r : Fin 16384) (n : Fin 2048) (k : Fin 2) : ridx_main_v7 (ix2 r n) k = ix2 k n := by
  funext a
  match a with
  | ⟨0, _⟩ => rfl
  | ⟨1, _⟩ => rfl

theorem lidx_v14 (r : Fin 16384) (n : Fin 2048) (k : Fin 512) : lidx_main_v14 (ix2 r n) k = ix2 r k := by
  funext a
  match a with
  | ⟨0, _⟩ => rfl
  | ⟨1, _⟩ => rfl

theorem ridx_v14 (r : Fin 16384) (n : Fin 2048) (k : Fin 512) : ridx_main_v14 (ix2 r n) k = ix2 k n := by
  funext a
  match a with
  | ⟨0, _⟩ => rfl
  | ⟨1, _⟩ => rfl

theorem lidx_v50 (r : Fin 16384) (n : Fin 2048) (k : Fin 512) : lidx_main_v50 (ix2 r n) k = ix2 r k := by
  funext a
  match a with
  | ⟨0, _⟩ => rfl
  | ⟨1, _⟩ => rfl

theorem ridx_v50 (r : Fin 16384) (n : Fin 2048) (k : Fin 512) : ridx_main_v50 (ix2 r n) k = ix2 k n := by
  funext a
  match a with
  | ⟨0, _⟩ => rfl
  | ⟨1, _⟩ => rfl

theorem lidx_v57 (r : Fin 16384) (n : Fin 2048) (k : Fin 512) : lidx_main_v57 (ix2 r n) k = ix2 r k := by
  funext a
  match a with
  | ⟨0, _⟩ => rfl
  | ⟨1, _⟩ => rfl

theorem ridx_v57 (r : Fin 16384) (n : Fin 2048) (k : Fin 512) : ridx_main_v57 (ix2 r n) k = ix2 k n := by
  funext a
  match a with
  | ⟨0, _⟩ => rfl
  | ⟨1, _⟩ => rfl

end Cert.Lstm.Ref

end
-- ==== Proof.RefLayer0.lean ====
/-
  Layer 0 of the reference at a row: its 2048 pre-activations, its four gates, its new cell and hidden states.

  The reference adds the input product, the first bias, the recurrent product and the second bias in that order;
  the cell's pre-activation adds the two products first. The logistic function is spelt as 1 / (1 + exp (-z)) with
  the float 1.0 as a word, which is the logistic function's definition once the word is read as 1.
-/
import proofs.«101591_j15547781612107_2_alg».proof.Proof.RefRows

noncomputable section

namespace Cert.Lstm.Ref

open Cert.ReferenceIdeal Cert.ReferenceIdeal.Read Idealize.ShloMosaic Idealize.ShloMosaic.ValueIdx

/-- One over one plus the exponential of the negation, with the float 1.0's word for 1, is the logistic function. -/
theorem logistic_spelt (z : EReal) :
    Ideal.div (Ideal.ofBits .f32 0x3F800000#32) (Ideal.ofBits .f32 0x3F800000#32 + Ideal.exp (-z)) = Ideal.logistic z := by
  rw [ofBits_one]; rfl

/-! ## Where the four gate groups sit among the 2048 columns -/

theorem idx_v19 (r : Fin 16384) (j : Fin 512) :
    idx_main_v19 (ix2 r j) = (ix2 r (col 0 j) : S16384x2048.Idx) := by
  funext a
  match a with
  | ⟨0, _⟩ => rfl
  | ⟨1, _⟩ => exact Fin.ext (by show j.val = 0 * 512 + j.val; omega)

theorem idx_v20 (r : Fin 16384) (j : Fin 512) :
    idx_main_v20 (ix2 r j) = (ix2 r (col 1 j) : S16384x2048.Idx) := by
  funext a
  match a with
  | ⟨0, _⟩ => rfl
  | ⟨1, _⟩ => exact Fin.ext (by show 512 + j.val = 1 * 512 + j.val; omega)

theorem idx_v21 (r : Fin 16384) (j : Fin 512) :
    idx_main_v21 (ix2 r j) = (ix2 r (col 2 j) : S16384x2048.Idx) := by
  funext a
  match a with
  | ⟨0, _⟩ => rfl
  | ⟨1, _⟩ => exact Fin.ext (by show 1024 + j.val = 2 * 512 + j.val; omega)

theorem idx_v22 (r : Fin 16384) (j : Fin 512) :
    idx_main_v22 (ix2 r j) = (ix2 r (col 3 j) : S16384x2048.Idx) := by
  funext a
  match a with
  | ⟨0, _⟩ => rfl
  | ⟨1, _⟩ => exact Fin.ext (by show 1536 + j.val = 3 * 512 + j.val; omega)

variable (a : Args)

/-! ## The pre-activations -/

/-- Layer 0's input product at (row, gate column). -/
theorem v7_at (r : Fin 16384) (n : Fin 2048) :
    val_main_v7 (F := Ideal) a.x a.wi0 (ix2 r n) = ∑ k, (rowOf a (rowP r) (rowB r)).x k * (weightsOf a).wi0 n k := by
  rw [val_main_v7_apply]
  refine Finset.sum_congr rfl fun k _ => ?_
  rw [lidx_v7, ridx_v7, v1_at, v6_at]
  rfl

/-- Layer 0's recurrent product at (row, gate column). -/
theorem v14_at (r : Fin 16384) (n : Fin 2048) :
    val_main_v14 (F := Ideal) a.h a.wh0 (ix2 r n) = ∑ k, (rowOf a (rowP r) (rowB r)).h0 k * (weightsOf a).wh0 n k := by
  rw [val_main_v14_apply]
  refine Finset.sum_congr rfl fun k _ => ?_
  rw [lidx_v14, ridx_v14, v12_at, v13_at]
  rfl

/-- Layer 0's pre-activations at a row are the cell's. -/
theorem v18_at (r : Fin 16384) (n : Fin 2048) :
    val_main_v18 (F := Ideal) a.x a.h a.wi0 a.wh0 a.bi0 a.bh0 (ix2 r n) = pre0 (weightsOf a) (rowOf a (rowP r) (rowB r)) n := by
  rw [val_main_v18_apply, val_main_v15_apply, val_main_v10_apply, v7_at, v9_at, v14_at, v17_at]
  exact preAct_bias_first (rowOf a (rowP r) (rowB r)).x ((weightsOf a).wi0 n) (rowOf a (rowP r) (rowB r)).h0 ((weightsOf a).wh0 n) ((weightsOf a).bi0 n) ((weightsOf a).bh0 n)

/-! ## The gates -/

/-- The input gate: the logistic function of its pre-activation. -/
theorem v28_at (r : Fin 16384) (j : Fin 512) :
    val_main_v28 (F := Ideal) a.x a.h a.wi0 a.wh0 a.bi0 a.bh0 (ix2 r j) = Ideal.logistic (pre0 (weightsOf a) (rowOf a (rowP r) (rowB r)) (col 0 j)) := by
  rw [val_main_v28_apply, val_main_v27_apply, val_main_cst_0_apply, val_main_v26_apply, val_main_v25_apply,
    val_main_cst_apply, val_main_v24_apply, val_main_v23_apply, val_main_v19_apply, idx_v19, v18_at]
  exact logistic_spelt _

/-- The forget gate: the logistic function of its pre-activation. -/
theorem v34_at (r : Fin 16384) (j : Fin 512) :
    val_main_v34 (F := Ideal) a.x a.h a.wi0 a.wh0 a.bi0 a.bh0 (ix2 r j) = Ideal.logistic (pre0 (weightsOf a) (rowOf a (rowP r) (rowB r)) (col 1 j)) := by
  rw [val_main_v34_apply, val_main_v33_apply, val_main_cst_2_apply, val_main_v32_apply, val_main_v31_apply,
    val_main_cst_1_apply, val_main_v30_apply, val_main_v29_apply, val_main_v20_apply, idx_v20, v18_at]
  exact logistic_spelt _

/-- The output gate: the logistic function of its pre-activation. -/
theorem v40_at (r : Fin 16384) (j : Fin 512) :
    val_main_v40 (F := Ideal) a.x a.h a.wi0 a.wh0 a.bi0 a.bh0 (ix2 r j) = Ideal.logistic (pre0 (weightsOf a) (rowOf a (rowP r) (rowB r)) (col 3 j)) := by
  rw [val_main_v40_apply, val_main_v39_apply, val_main_cst_4_apply, val_main_v38_apply, val_main_v37_apply,
    val_main_cst_3_apply, val_main_v36_apply, val_main_v35_apply, val_main_v22_apply, idx_v22, v18_at]
  exact logistic_spelt _

/-- The candidate: the hyperbolic tangent of its pre-activation. -/
theorem v41_at (r : Fin 16384) (j : Fin 512) :
    val_main_v41 (F := Ideal) a.x a.h a.wi0 a.wh0 a.bi0 a.bh0 (ix2 r j) = Ideal.tanh (pre0 (weightsOf a) (rowOf a (rowP r) (rowB r)) (col 2 j)) := by
  rw [val_main_v41_apply, val_main_v21_apply, idx_v21, v18_at]
  rfl

/-! ## The new states -/

/-- Layer 0's new cell state at a row is the cell's. -/
theorem v46_at (r : Fin 16384) (j : Fin 512) :
    val_main_v46 (F := Ideal) a.x a.h a.c a.wi0 a.wh0 a.bi0 a.bh0 (ix2 r j) = newC0 (weightsOf a) (rowOf a (rowP r) (rowB r)) j := by
  rw [val_main_v46_apply, val_main_v44_apply, val_main_v45_apply, v34_at, v43_at, v28_at, v41_at]
  rfl

/-- Layer 0's new hidden state at a row is the cell's. -/
theorem v48_at (r : Fin 16384) (j : Fin 512) :
    val_main_v48 (F := Ideal) a.x a.h a.c a.wi0 a.wh0 a.bi0 a.bh0 (ix2 r j) = newH0 (weightsOf a) (rowOf a (rowP r) (rowB r)) j := by
  rw [val_main_v48_apply, val_main_v47_apply, v40_at, v46_at]
  rfl

end Cert.Lstm.Ref

end
-- ==== Proof.RefLayer1.lean ====
/-
  Layer 1 of the reference at a row: its input vector is layer 0's new hidden state at the same row, and the rest
  is layer 0 over again with layer 1's weights, biases and old states.
-/
import proofs.«101591_j15547781612107_2_alg».proof.Proof.RefLayer0

noncomputable section

namespace Cert.Lstm.Ref

open Cert.ReferenceIdeal Cert.ReferenceIdeal.Read Idealize.ShloMosaic Idealize.ShloMosaic.ValueIdx

/-! ## Where the four gate groups sit among the 2048 columns -/

theorem idx_v62 (r : Fin 16384) (j : Fin 512) :
    idx_main_v62 (ix2 r j) = (ix2 r (col 0 j) : S16384x2048.Idx) := by
  funext a
  match a with
  | ⟨0, _⟩ => rfl
  | ⟨1, _⟩ => exact Fin.ext (by show j.val = 0 * 512 + j.val; omega)

theorem idx_v63 (r : Fin 16384) (j : Fin 512) :
    idx_main_v63 (ix2 r j) = (ix2 r (col 1 j) : S16384x2048.Idx) := by
  funext a
  match a with
  | ⟨0, _⟩ => rfl
  | ⟨1, _⟩ => exact Fin.ext (by show 512 + j.val = 1 * 512 + j.val; omega)

theorem idx_v64 (r : Fin 16384) (j : Fin 512) :
    idx_main_v64 (ix2 r j) = (ix2 r (col 2 j) : S16384x2048.Idx) := by
  funext a
  match a with
  | ⟨0, _⟩ => rfl
  | ⟨1, _⟩ => exact Fin.ext (by show 1024 + j.val = 2 * 512 + j.val; omega)

theorem idx_v65 (r : Fin 16384) (j : Fin 512) :
    idx_main_v65 (ix2 r j) = (ix2 r (col 3 j) : S16384x2048.Idx) := by
  funext a
  match a with
  | ⟨0, _⟩ => rfl
  | ⟨1, _⟩ => exact Fin.ext (by show 1536 + j.val = 3 * 512 + j.val; omega)

variable (a : Args)

/-! ## The pre-activations -/

/-- Layer 1's input product at (row, gate column): its input vector is layer 0's new hidden state. -/
theorem v50_at (r : Fin 16384) (n : Fin 2048) :
    val_main_v50 (F := Ideal) a.x a.h a.c a.wi0 a.wh0 a.bi0 a.bh0 a.wi1 (ix2 r n) = ∑ k, newH0 (weightsOf a) (rowOf a (rowP r) (rowB r)) k * (weightsOf a).wi1 n k := by
  rw [val_main_v50_apply]
  refine Finset.sum_congr rfl fun k _ => ?_
  rw [lidx_v50, ridx_v50, v48_at, v49_at]
  rfl

/-- Layer 1's recurrent product at (row, gate column). -/
theorem v57_at (r : Fin 16384) (n : Fin 2048) :
    val_main_v57 (F := Ideal) a.h a.wh1 (ix2 r n) = ∑ k, (rowOf a (rowP r) (rowB r)).h1 k * (weightsOf a).wh1 n k := by
  rw [val_main_v57_apply]
  refine Finset.sum_congr rfl fun k _ => ?_
  rw [lidx_v57, ridx_v57, v55_at, v56_at]
  rfl

/-- Layer 1's pre-activations at a row are the cell's. -/
theorem v61_at (r : Fin 16384) (n : Fin 2048) :
    val_main_v61 (F := Ideal) a.x a.h a.c a.wi0 a.wh0 a.bi0 a.bh0 a.wi1 a.wh1 a.bi1 a.bh1 (ix2 r n) = pre1 (weightsOf a) (rowOf a (rowP r) (rowB r)) n := by
  rw [val_main_v61_apply, val_main_v58_apply, val_main_v53_apply, v50_at, v52_at, v57_at, v60_at]
  exact preAct_bias_first (newH0 (weightsOf a) (rowOf a (rowP r) (rowB r))) ((weightsOf a).wi1 n) (rowOf a (rowP r) (rowB r)).h1 ((weightsOf a).wh1 n) ((weightsOf a).bi1 n) ((weightsOf a).bh1 n)

/-! ## The gates -/

/-- The input gate: the logistic function of its pre-activation. -/
theorem v71_at (r : Fin 16384) (j : Fin 512) :
    val_main_v71 (F := Ideal) a.x a.h a.c a.wi0 a.wh0 a.bi0 a.bh0 a.wi1 a.wh1 a.bi1 a.bh1 (ix2 r j) = Ideal.logistic (pre1 (weightsOf a) (rowOf a (rowP r) (rowB r)) (col 0 j)) := by
  rw [val_main_v71_apply, val_main_v70_apply, val_main_cst_6_apply, val_main_v69_apply, val_main_v68_apply,
    val_main_cst_5_apply, val_main_v67_apply, val_main_v66_apply, val_main_v62_apply, idx_v62, v61_at]
  exact logistic_spelt _

/-- The forget gate: the logistic function of its pre-activation. -/
theorem v77_at (r : Fin 16384) (j : Fin 512) :
    val_main_v77 (F := Ideal) a.x a.h a.c a.wi0 a.wh0 a.bi0 a.bh0 a.wi1 a.wh1 a.bi1 a.bh1 (ix2 r j) = Ideal.logistic (pre1 (weightsOf a) (rowOf a (rowP r) (rowB r)) (col 1 j)) := by
  rw [val_main_v77_apply, val_main_v76_apply, val_main_cst_8_apply, val_main_v75_apply, val_main_v74_apply,
    val_main_cst_7_apply, val_main_v73_apply, val_main_v72_apply, val_main_v63_apply, idx_v63, v61_at]
  exact logistic_spelt _

/-- The output gate: the logistic function of its pre-activation. -/
theorem v83_at (r : Fin 16384) (j : Fin 512) :
    val_main_v83 (F := Ideal) a.x a.h a.c a.wi0 a.wh0 a.bi0 a.bh0 a.wi1 a.wh1 a.bi1 a.bh1 (ix2 r j) = Ideal.logistic (pre1 (weightsOf a) (rowOf a (rowP r) (rowB r)) (col 3 j)) := by
  rw [val_main_v83_apply, val_main_v82_apply, val_main_cst_10_apply, val_main_v81_apply, val_main_v80_apply,
    val_main_cst_9_apply, val_main_v79_apply, val_main_v78_apply, val_main_v65_apply, idx_v65, v61_at]
  exact logistic_spelt _

/-- The candidate: the hyperbolic tangent of its pre-activation. -/
theorem v84_at (r : Fin 16384) (j : Fin 512) :
    val_main_v84 (F := Ideal) a.x a.h a.c a.wi0 a.wh0 a.bi0 a.bh0 a.wi1 a.wh1 a.bi1 a.bh1 (ix2 r j) = Ideal.tanh (pre1 (weightsOf a) (rowOf a (rowP r) (rowB r)) (col 2 j)) := by
  rw [val_main_v84_apply, val_main_v64_apply, idx_v64, v61_at]
  rfl

/-! ## The new states -/

/-- Layer 1's new cell state at a row is the cell's. -/
theorem v89_at (r : Fin 16384) (j : Fin 512) :
    val_main_v89 (F := Ideal) a.x a.h a.c a.wi0 a.wh0 a.bi0 a.bh0 a.wi1 a.wh1 a.bi1 a.bh1 (ix2 r j) = newC1 (weightsOf a) (rowOf a (rowP r) (rowB r)) j := by
  rw [val_main_v89_apply, val_main_v87_apply, val_main_v88_apply, v77_at, v86_at, v71_at, v84_at]
  rfl

/-- Layer 1's new hidden state at a row is the cell's. -/
theorem v91_at (r : Fin 16384) (j : Fin 512) :
    val_main_v91 (F := Ideal) a.x a.h a.c a.wi0 a.wh0 a.bi0 a.bh0 a.wi1 a.wh1 a.bi1 a.bh1 (ix2 r j) = newH1 (weightsOf a) (rowOf a (rowP r) (rowB r)) j := by
  rw [val_main_v91_apply, val_main_v90_apply, v83_at, v89_at]
  rfl

end Cert.Lstm.Ref

end
-- ==== Proof.RefOut.lean ====
/-
  The reference's three results are the specification's three whole-array functions.

  The output is layer 1's new hidden state, its 16384 rows cut back into [pedestrian, batch] and the two swapped.
  The new hidden (cell) states are the two layers' new hidden (cell) states, each as one slab, joined along a new
  leading layer axis, the rows cut back into [pedestrian, batch], and the layer axis moved behind the pedestrian's.
  An element of the joined array comes from layer 0's slab at layer coordinate 0 and from layer 1's at 1.
-/
import proofs.«101591_j15547781612107_2_alg».proof.Proof.RefLayer1

noncomputable section

namespace Cert.Lstm.Ref

open Cert.ReferenceIdeal Cert.ReferenceIdeal.Read Idealize.ShloMosaic Idealize.ShloMosaic.ValueIdx

/-- A layer coordinate is 0 or 1. -/
theorem two_cases (l : Fin 2) : l = 0 ∨ l = 1 := by
  have := l.isLt
  rcases Nat.lt_or_ge l.val 1 with h | h
  · exact Or.inl (Fin.ext (by show l.val = 0; omega))
  · exact Or.inr (Fin.ext (by show l.val = 1; omega))

variable (a : Args)

/-! ## The output -/

theorem idx_v93 (b : Fin 256) (p : Fin 64) (j : Fin 512) :
    idx_main_v93 (ix3 b p j : S256x64x512.Idx) = (ix3 p b j : S64x256x512.Idx) := by
  funext a
  match a with
  | ⟨0, _⟩ => rfl
  | ⟨1, _⟩ => rfl
  | ⟨2, _⟩ => rfl

theorem idx_v92 (p : Fin 64) (b : Fin 256) (j : Fin 512) :
    idx_main_v92 (ix3 p b j : S64x256x512.Idx) = (ix2 (rowAt p b) j : S16384x512.Idx) := by
  have hp := p.isLt; have hb := b.isLt; have hj := j.isLt
  funext a
  match a with
  | ⟨0, _⟩ => exact Fin.ext (by show ((p.val * 256 + b.val) * 512 + j.val) / 512 = p.val * 256 + b.val; omega)
  | ⟨1, _⟩ => exact Fin.ext (by show ((p.val * 256 + b.val) * 512 + j.val) % 512 = j.val; omega)

/-- The reference's output at an index is the specification's. -/
theorem specOut_at (i : S256x64x512.Idx) :
    val_main_v93 (F := Ideal) a.x a.h a.c a.wi0 a.wh0 a.bi0 a.bh0 a.wi1 a.wh1 a.bi1 a.bh1 i = specOut a i := by
  obtain ⟨b, p, j, rfl⟩ : ∃ (b : Fin 256) (p : Fin 64) (j : Fin 512), i = ix3 b p j := ⟨i 0, i 1, i 2, eq_ix3 i⟩
  rw [val_main_v93_apply, idx_v93, val_main_v92_apply, idx_v92, v91_at, rowP_rowAt, rowB_rowAt]
  rfl

/-! ## The new hidden states -/

theorem idx_v94 (r : Fin 16384) (j : Fin 512) :
    idx_main_v94 (ix3 (0 : Fin 1) r j : S1x16384x512.Idx) = (ix2 r j : S16384x512.Idx) := by
  funext a
  match a with
  | ⟨0, _⟩ => rfl
  | ⟨1, _⟩ => rfl

theorem idx_v95 (r : Fin 16384) (j : Fin 512) :
    idx_main_v95 (ix3 (0 : Fin 1) r j : S1x16384x512.Idx) = (ix2 r j : S16384x512.Idx) := by
  funext a
  match a with
  | ⟨0, _⟩ => rfl
  | ⟨1, _⟩ => rfl

/-- The joined slabs at layer coordinate 0: layer 0's slab. -/
theorem v96_at_0 (r : Fin 16384) (j : Fin 512) :
    val_main_v96 (F := Ideal) a.x a.h a.c a.wi0 a.wh0 a.bi0 a.bh0 a.wi1 a.wh1 a.bi1 a.bh1 (ix3 (0 : Fin 2) r j) =
      val_main_v94 (F := Ideal) a.x a.h a.c a.wi0 a.wh0 a.bi0 a.bh0 (ix3 (0 : Fin 1) r j) := by
  unfold val_main_v96
  exact concatenate_pair_apply_left (s₁ := S1x16384x512) (s₂ := S1x16384x512) (0 : Fin S2x16384x512.rank) _ _ _
    (ix3 (0 : Fin 2) r j) rfl (ix3 (0 : Fin 1) r j) (fun b => match b with
      | ⟨0, _⟩ => rfl
      | ⟨1, _⟩ => rfl
      | ⟨2, _⟩ => rfl)

/-- The joined slabs at layer coordinate 1: layer 1's slab. -/
theorem v96_at_1 (r : Fin 16384) (j : Fin 512) :
    val_main_v96 (F := Ideal) a.x a.h a.c a.wi0 a.wh0 a.bi0 a.bh0 a.wi1 a.wh1 a.bi1 a.bh1 (ix3 (1 : Fin 2) r j) =
      val_main_v95 (F := Ideal) a.x a.h a.c a.wi0 a.wh0 a.bi0 a.bh0 a.wi1 a.wh1 a.bi1 a.bh1 (ix3 (0 : Fin 1) r j) := by
  unfold val_main_v96
  exact concatenate_pair_apply_right (s₁ := S1x16384x512) (s₂ := S1x16384x512) (0 : Fin S2x16384x512.rank) _ _ _
    (ix3 (1 : Fin 2) r j) rfl rfl (ix3 (0 : Fin 1) r j) (fun b hb => match b, hb with
      | ⟨0, _⟩, hb => absurd rfl hb
      | ⟨1, _⟩, _ => rfl
      | ⟨2, _⟩, _ => rfl) rfl

theorem idx_v98 (p : Fin 64) (l : Fin 2) (b : Fin 256) (j : Fin 512) :
    idx_main_v98 (ix4 p l b j : S64x2x256x512.Idx) = (ix4 l p b j : S2x64x256x512.Idx) := by
  funext a
  match a with
  | ⟨0, _⟩ => rfl
  | ⟨1, _⟩ => rfl
  | ⟨2, _⟩ => rfl
  | ⟨3, _⟩ => rfl

theorem idx_v97 (l : Fin 2) (p : Fin 64) (b : Fin 256) (j : Fin 512) :
    idx_main_v97 (ix4 l p b j : S2x64x256x512.Idx) = (ix3 l (rowAt p b) j : S2x16384x512.Idx) := by
  have hl := l.isLt; have hp := p.isLt; have hb := b.isLt; have hj := j.isLt
  funext a
  match a with
  | ⟨0, _⟩ => exact Fin.ext (by show (((l.val * 64 + p.val) * 256 + b.val) * 512 + j.val) / 8388608 = l.val; omega)
  | ⟨1, _⟩ => exact Fin.ext (by show (((l.val * 64 + p.val) * 256 + b.val) * 512 + j.val) / 512 % 16384 = p.val * 256 + b.val; omega)
  | ⟨2, _⟩ => exact Fin.ext (by show (((l.val * 64 + p.val) * 256 + b.val) * 512 + j.val) % 512 = j.val; omega)

/-- The reference's new hidden states at an index are the specification's. -/
theorem specHn_at (i : S64x2x256x512.Idx) :
    val_main_v98 (F := Ideal) a.x a.h a.c a.wi0 a.wh0 a.bi0 a.bh0 a.wi1 a.wh1 a.bi1 a.bh1 i = specHn a i := by
  obtain ⟨p, l, b, j, rfl⟩ : ∃ (p : Fin 64) (l : Fin 2) (b : Fin 256) (j : Fin 512), i = ix4 p l b j :=
    ⟨i 0, i 1, i 2, i 3, eq_ix4 i⟩
  rw [val_main_v98_apply, idx_v98, val_main_v97_apply, idx_v97]
  rcases two_cases l with rfl | rfl
  · rw [v96_at_0, val_main_v94_apply, idx_v94, v48_at, rowP_rowAt, rowB_rowAt]
    rfl
  · rw [v96_at_1, val_main_v95_apply, idx_v95, v91_at, rowP_rowAt, rowB_rowAt]
    rfl

/-! ## The new cell states -/

theorem idx_v99 (r : Fin 16384) (j : Fin 512) :
    idx_main_v99 (ix3 (0 : Fin 1) r j : S1x16384x512.Idx) = (ix2 r j : S16384x512.Idx) := by
  funext a
  match a with
  | ⟨0, _⟩ => rfl
  | ⟨1, _⟩ => rfl

theorem idx_v100 (r : Fin 16384) (j : Fin 512) :
    idx_main_v100 (ix3 (0 : Fin 1) r j : S1x16384x512.Idx) = (ix2 r j : S16384x512.Idx) := by
  funext a
  match a with
  | ⟨0, _⟩ => rfl
  | ⟨1, _⟩ => rfl

/-- The joined slabs at layer coordinate 0: layer 0's slab. -/
theorem v101_at_0 (r : Fin 16384) (j : Fin 512) :
    val_main_v101 (F := Ideal) a.x a.h a.c a.wi0 a.wh0 a.bi0 a.bh0 a.wi1 a.wh1 a.bi1 a.bh1 (ix3 (0 : Fin 2) r j) =
      val_main_v99 (F := Ideal) a.x a.h a.c a.wi0 a.wh0 a.bi0 a.bh0 (ix3 (0 : Fin 1) r j) := by
  unfold val_main_v101
  exact concatenate_pair_apply_left (s₁ := S1x16384x512) (s₂ := S1x16384x512) (0 : Fin S2x16384x512.rank) _ _ _
    (ix3 (0 : Fin 2) r j) rfl (ix3 (0 : Fin 1) r j) (fun b => match b with
      | ⟨0, _⟩ => rfl
      | ⟨1, _⟩ => rfl
      | ⟨2, _⟩ => rfl)

/-- The joined slabs at layer coordinate 1: layer 1's slab. -/
theorem v101_at_1 (r : Fin 16384) (j : Fin 512) :
    val_main_v101 (F := Ideal) a.x a.h a.c a.wi0 a.wh0 a.bi0 a.bh0 a.wi1 a.wh1 a.bi1 a.bh1 (ix3 (1 : Fin 2) r j) =
      val_main_v100 (F := Ideal) a.x a.h a.c a.wi0 a.wh0 a.bi0 a.bh0 a.wi1 a.wh1 a.bi1 a.bh1 (ix3 (0 : Fin 1) r j) := by
  unfold val_main_v101
  exact concatenate_pair_apply_right (s₁ := S1x16384x512) (s₂ := S1x16384x512) (0 : Fin S2x16384x512.rank) _ _ _
    (ix3 (1 : Fin 2) r j) rfl rfl (ix3 (0 : Fin 1) r j) (fun b hb => match b, hb with
      | ⟨0, _⟩, hb => absurd rfl hb
      | ⟨1, _⟩, _ => rfl
      | ⟨2, _⟩, _ => rfl) rfl

theorem idx_v103 (p : Fin 64) (l : Fin 2) (b : Fin 256) (j : Fin 512) :
    idx_main_v103 (ix4 p l b j : S64x2x256x512.Idx) = (ix4 l p b j : S2x64x256x512.Idx) := by
  funext a
  match a with
  | ⟨0, _⟩ => rfl
  | ⟨1, _⟩ => rfl
  | ⟨2, _⟩ => rfl
  | ⟨3, _⟩ => rfl

theorem idx_v102 (l : Fin 2) (p : Fin 64) (b : Fin 256) (j : Fin 512) :
    idx_main_v102 (ix4 l p b j : S2x64x256x512.Idx) = (ix3 l (rowAt p b) j : S2x16384x512.Idx) := by
  have hl := l.isLt; have hp := p.isLt; have hb := b.isLt; have hj := j.isLt
  funext a
  match a with
  | ⟨0, _⟩ => exact Fin.ext (by show (((l.val * 64 + p.val) * 256 + b.val) * 512 + j.val) / 8388608 = l.val; omega)
  | ⟨1, _⟩ => exact Fin.ext (by show (((l.val * 64 + p.val) * 256 + b.val) * 512 + j.val) / 512 % 16384 = p.val * 256 + b.val; omega)
  | ⟨2, _⟩ => exact Fin.ext (by show (((l.val * 64 + p.val) * 256 + b.val) * 512 + j.val) % 512 = j.val; omega)

/-- The reference's new cell states at an index are the specification's. -/
theorem specCn_at (i : S64x2x256x512.Idx) :
    val_main_v103 (F := Ideal) a.x a.h a.c a.wi0 a.wh0 a.bi0 a.bh0 a.wi1 a.wh1 a.bi1 a.bh1 i = specCn a i := by
  obtain ⟨p, l, b, j, rfl⟩ : ∃ (p : Fin 64) (l : Fin 2) (b : Fin 256) (j : Fin 512), i = ix4 p l b j :=
    ⟨i 0, i 1, i 2, i 3, eq_ix4 i⟩
  rw [val_main_v103_apply, idx_v103, val_main_v102_apply, idx_v102]
  rcases two_cases l with rfl | rfl
  · rw [v101_at_0, val_main_v99_apply, idx_v99, v46_at, rowP_rowAt, rowB_rowAt]
    rfl
  · rw [v101_at_1, val_main_v100_apply, idx_v100, v89_at, rowP_rowAt, rowB_rowAt]
    rfl

/-! ## The three results as whole arrays -/

/-- The reference's output is the specification's. -/
theorem ref_out (x0 : (⟨S256x64x2, .f32⟩ : BufTy).Contents (Elt Ideal)) (x1 : (⟨S64x2x256x512, .f32⟩ : BufTy).Contents (Elt Ideal)) (x2 : (⟨S64x2x256x512, .f32⟩ : BufTy).Contents (Elt Ideal)) (x3 : (⟨S2048x2, .f32⟩ : BufTy).Contents (Elt Ideal)) (x4 : (⟨S2048x512, .f32⟩ : BufTy).Contents (Elt Ideal)) (x5 : (⟨S2048, .f32⟩ : BufTy).Contents (Elt Ideal)) (x6 : (⟨S2048, .f32⟩ : BufTy).Contents (Elt Ideal)) (x7 : (⟨S2048x512, .f32⟩ : BufTy).Contents (Elt Ideal)) (x8 : (⟨S2048x512, .f32⟩ : BufTy).Contents (Elt Ideal)) (x9 : (⟨S2048, .f32⟩ : BufTy).Contents (Elt Ideal)) (x10 : (⟨S2048, .f32⟩ : BufTy).Contents (Elt Ideal)) :
    val_main_v93 (F := Ideal) x0 x1 x2 x3 x4 x5 x6 x7 x8 x9 x10 = specOut ⟨x0, x1, x2, x3, x4, x5, x6, x7, x8, x9, x10⟩ :=
  funext fun i => specOut_at ⟨x0, x1, x2, x3, x4, x5, x6, x7, x8, x9, x10⟩ i

/-- The reference's new hidden states are the specification's. -/
theorem ref_hn (x0 : (⟨S256x64x2, .f32⟩ : BufTy).Contents (Elt Ideal)) (x1 : (⟨S64x2x256x512, .f32⟩ : BufTy).Contents (Elt Ideal)) (x2 : (⟨S64x2x256x512, .f32⟩ : BufTy).Contents (Elt Ideal)) (x3 : (⟨S2048x2, .f32⟩ : BufTy).Contents (Elt Ideal)) (x4 : (⟨S2048x512, .f32⟩ : BufTy).Contents (Elt Ideal)) (x5 : (⟨S2048, .f32⟩ : BufTy).Contents (Elt Ideal)) (x6 : (⟨S2048, .f32⟩ : BufTy).Contents (Elt Ideal)) (x7 : (⟨S2048x512, .f32⟩ : BufTy).Contents (Elt Ideal)) (x8 : (⟨S2048x512, .f32⟩ : BufTy).Contents (Elt Ideal)) (x9 : (⟨S2048, .f32⟩ : BufTy).Contents (Elt Ideal)) (x10 : (⟨S2048, .f32⟩ : BufTy).Contents (Elt Ideal)) :
    val_main_v98 (F := Ideal) x0 x1 x2 x3 x4 x5 x6 x7 x8 x9 x10 = specHn ⟨x0, x1, x2, x3, x4, x5, x6, x7, x8, x9, x10⟩ :=
  funext fun i => specHn_at ⟨x0, x1, x2, x3, x4, x5, x6, x7, x8, x9, x10⟩ i

/-- The reference's new cell states are the specification's. -/
theorem ref_cn (x0 : (⟨S256x64x2, .f32⟩ : BufTy).Contents (Elt Ideal)) (x1 : (⟨S64x2x256x512, .f32⟩ : BufTy).Contents (Elt Ideal)) (x2 : (⟨S64x2x256x512, .f32⟩ : BufTy).Contents (Elt Ideal)) (x3 : (⟨S2048x2, .f32⟩ : BufTy).Contents (Elt Ideal)) (x4 : (⟨S2048x512, .f32⟩ : BufTy).Contents (Elt Ideal)) (x5 : (⟨S2048, .f32⟩ : BufTy).Contents (Elt Ideal)) (x6 : (⟨S2048, .f32⟩ : BufTy).Contents (Elt Ideal)) (x7 : (⟨S2048x512, .f32⟩ : BufTy).Contents (Elt Ideal)) (x8 : (⟨S2048x512, .f32⟩ : BufTy).Contents (Elt Ideal)) (x9 : (⟨S2048, .f32⟩ : BufTy).Contents (Elt Ideal)) (x10 : (⟨S2048, .f32⟩ : BufTy).Contents (Elt Ideal)) :
    val_main_v103 (F := Ideal) x0 x1 x2 x3 x4 x5 x6 x7 x8 x9 x10 = specCn ⟨x0, x1, x2, x3, x4, x5, x6, x7, x8, x9, x10⟩ :=
  funext fun i => specCn_at ⟨x0, x1, x2, x3, x4, x5, x6, x7, x8, x9, x10⟩ i

end Cert.Lstm.Ref

end
-- ==== Proof.lean ====
/-
  A two-layer, single-step LSTM cell over 64 pedestrians and 256 batch elements: the kernel against its reference.

  Both programs compute, for every pedestrian p, batch element b and hidden unit j, the same cell. Layer l forms 2048
  gate pre-activations from its input vector x, its old hidden state h and the weights,
      pre n = sum_k x k * wi n k + sum_k h k * wh n k + bi n + bh n,
  splits them into the input, forget, candidate and output gates (columns j, 512 + j, 1024 + j, 1536 + j) and sets
      c' j = logistic (forget) * c j + logistic (input) * tanh (candidate),   h' j = logistic (output) * tanh (c' j);
  layer 1's input vector is layer 0's h'. The results are h' and c' of both layers in the states' layout
  [pedestrian, layer, batch, 512], and layer 1's h' as [batch, pedestrian, 512].

  The kernel works on 32 tiles of 2 pedestrians, with the weight matrices transposed by the host beforehand, the two
  matrix products of a layer accumulated from zero, and the logistic function as one operation; the reference
  flattens (pedestrian, batch) into 16384 rows, adds the first bias before the recurrent product, and spells the
  logistic function as 1 / (1 + exp (-z)). Over the extended reals a product into a zero accumulator is the plain sum
  over the contracted coordinate, 1 / (1 + exp (-z)) is the logistic function by definition, and the two orders of
  adding the four terms agree because addition is commutative and associative. No step needs the inputs to be finite.

  The specification (the cell, and the three results as whole-array functions of the eleven arguments) is in
  LstmCell and LstmSpec. The kernel's side reads the body's stored values at a row of a tile (TileLayout, TileCell,
  TileBlock), carries the tiles to the whole arrays (KernBlocks) and reads the run (KernRun); the reference's side
  reads its run one operation at a time down to the same cell (RefRows, RefLayer0, RefLayer1, RefOut). The ideal
  pass rewrote nothing, so the kernel's idealization is its own text read over the extended reals.
-/
import proofs.«101591_j15547781612107_2_alg».proof.Defs
import proofs.«101591_j15547781612107_2_alg».proof.Proof.Gen.Kernel
import proofs.«101591_j15547781612107_2_alg».proof.Proof.Gen.Kernel.Skeleton
import proofs.«101591_j15547781612107_2_alg».proof.Proof.Gen.Kernel.Launch
import proofs.«101591_j15547781612107_2_alg».proof.Proof.Gen.Kernel.Points
import proofs.«101591_j15547781612107_2_alg».proof.Proof.Gen.Kernel.Frame
import proofs.«101591_j15547781612107_2_alg».proof.Proof.Gen.KernelIdeal
import proofs.«101591_j15547781612107_2_alg».proof.Proof.Gen.KernelIdeal.Skeleton
import proofs.«101591_j15547781612107_2_alg».proof.Proof.Gen.KernelIdeal.Launch
import proofs.«101591_j15547781612107_2_alg».proof.Proof.Gen.KernelIdeal.Points
import proofs.«101591_j15547781612107_2_alg».proof.Proof.Gen.KernelIdeal.Frame
import proofs.«101591_j15547781612107_2_alg».proof.Proof.Gen.ReferenceIdeal
import proofs.«101591_j15547781612107_2_alg».proof.Proof.Gen.Pre_finite_inputs
import proofs.«101591_j15547781612107_2_alg».proof.Proof.Gen.ReferenceIdeal.Run
import proofs.«101591_j15547781612107_2_alg».proof.Proof.Gen.ReferenceIdeal.Read
import proofs.«101591_j15547781612107_2_alg».proof.Proof.KernRun
import proofs.«101591_j15547781612107_2_alg».proof.Proof.RefOut
import Idealize.ShloMosaic.Adequacy
import Idealize.ShloMosaic.Init

noncomputable section

namespace Cert.Proof

open Idealize.ShloMosaic Idealize.ShloMosaic.TcCoe Idealize.SL.Sem Cert.Lstm

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the three results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the eleven arguments both programs end with the output, the new hidden states and
    the new cell states at the same three functions of the arguments. -/
theorem algebraic : Cert.algebraic_KernelIdeal_ReferenceIdeal := by
  intro m ρ m' ρ' _ hagree
  refine ⟨fun c => specOut (Kern.argsOf m c), fun c => specHn (Kern.argsOf m c), fun c => specCn (Kern.argsOf m c),
    Cert.Lstm.Kern.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v93_eq, Cert.Lstm.Ref.ref_out, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · rw [Cert.ReferenceIdeal.Read.val_main_v98_eq, Cert.Lstm.Ref.ref_hn, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · rw [Cert.ReferenceIdeal.Read.val_main_v103_eq, Cert.Lstm.Ref.ref_cn, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
